-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S100000x128 .f32) (main_arg1 : IVec S2x640000 32) (main_arg2 : IVec S100000 32) (main_arg3 : FVec F S3x128x128 .f32) (main_arg4 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  main_v13
-- ==== Kernel.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128x128 : Shape := ⟨3, ![1, 128, 128]⟩
abbrev S128x128 : Shape := ⟨2, ![128, 128]⟩
abbrev S5000x128 : Shape := ⟨2, ![5000, 128]⟩
abbrev S640000x128 : Shape := ⟨2, ![640000, 128]⟩
abbrev S10000x128 : Shape := ⟨2, ![10000, 128]⟩
abbrev S10000x1 : Shape := ⟨2, ![10000, 1]⟩
abbrev S1x128 : Shape := ⟨2, ![1, 128]⟩
abbrev S128 : Shape := ⟨1, ![128]⟩

abbrev nBuf : Space → Nat
  | .hbm => 113
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000, .f32⟩
  | .hbm, ⟨48, _⟩ => ⟨S640000, .f32⟩
  | .hbm, ⟨49, _⟩ => ⟨S640000x1, .f32⟩
  | .hbm, ⟨50, _⟩ => ⟨S1x128x128, .f32⟩
  | .hbm, ⟨51, _⟩ => ⟨S128x128, .f32⟩
  | .hbm, ⟨52, _⟩ => ⟨S100000x128, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S100000x128, .f32⟩
  | .hbm, ⟨65, _⟩ => ⟨S640000x1, .i32⟩
  | .hbm, ⟨66, _⟩ => ⟨S100000x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x128, .f32⟩
  | .hbm, ⟨83, _⟩ => ⟨S640000x128, .f32⟩
  | .hbm, ⟨84, _⟩ => ⟨S_, .f32⟩
  | .hbm, ⟨85, _⟩ => ⟨S100000x128, .f32⟩
  | .hbm, ⟨86, _⟩ => ⟨S640000x1, .i32⟩
  | .hbm, ⟨87, _⟩ => ⟨S100000x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S1x128x128, .f32⟩
  | .hbm, ⟨93, _⟩ => ⟨S128x128, .f32⟩
  | .hbm, ⟨94, _⟩ => ⟨S100000x128, .f32⟩
  | .hbm, ⟨95, _⟩ => ⟨S_, .i32⟩
  | .hbm, ⟨96, _⟩ => ⟨S640000, .i32⟩
  | .hbm, ⟨97, _⟩ => ⟨S640000, .i1⟩
  | .hbm, ⟨98, _⟩ => ⟨S_, .i32⟩
  | .hbm, ⟨99, _⟩ => ⟨S640000, .i32⟩
  | .hbm, ⟨100, _⟩ => ⟨S640000, .i32⟩
  | .hbm, ⟨101, _⟩ => ⟨S640000, .i32⟩
  | .hbm, ⟨102, _⟩ => ⟨S640000x1, .i32⟩
  | .hbm, ⟨103, _⟩ => ⟨S640000x128, .f32⟩
  | .hbm, ⟨104, _⟩ => ⟨S640000x128, .f32⟩
  | .hbm, ⟨105, _⟩ => ⟨S_, .f32⟩
  | .hbm, ⟨106, _⟩ => ⟨S100000x128, .f32⟩
  | .hbm, ⟨107, _⟩ => ⟨S640000x1, .i32⟩
  | .hbm, ⟨108, _⟩ => ⟨S100000x128, .f32⟩
  | .hbm, ⟨109, _⟩ => ⟨S1x128, .f32⟩
  | .hbm, ⟨110, _⟩ => ⟨S128, .f32⟩
  | .hbm, ⟨111, _⟩ => ⟨S1x128, .f32⟩
  | .hbm, ⟨112, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S10000x128, .f32⟩
  | .local _ .vmem, ⟨38, _⟩ => ⟨S10000x128, .f32⟩
  | .local _ .vmem, ⟨39, _⟩ => ⟨S10000x1, .f32⟩
  | .local _ .vmem, ⟨40, _⟩ => ⟨S10000x1, .f32⟩
  | .local _ .vmem, ⟨41, _⟩ => ⟨S10000x128, .f32⟩
  | .local _ .vmem, ⟨42, _⟩ => ⟨S10000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_c_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![64], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S640000_S640000x1 : S640000.ShapeCasts S640000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S640000x128.size a
  hwx1_0 : ∀ i : grid1.Coords, EltTy.bits .f32 = 32 ∨ (Rect.block (s := S640000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S640000x1.size a
  hwx1_1 : ∀ i : grid1.Coords, EltTy.bits .f32 = 32 ∨ (Rect.block (s := S640000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S640000x128.size a
  hwx1_2 : ∀ i : grid1.Coords, EltTy.bits .f32 = 32 ∨ (Rect.block (s := S640000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S640000x128.size a
  hwx4_0 : ∀ i : grid4.Coords, EltTy.bits .f32 = 32 ∨ (Rect.block (s := S640000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S640000x1.size a
  hwx4_1 : ∀ i : grid4.Coords, EltTy.bits .f32 = 32 ∨ (Rect.block (s := S640000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S640000x128.size a
  hwx4_2 : ∀ i : grid4.Coords, EltTy.bits .f32 = 32 ∨ (Rect.block (s := S640000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S640000x128.size a
  hwx7_0 : ∀ i : grid7.Coords, EltTy.bits .f32 = 32 ∨ (Rect.block (s := S640000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S640000x1.size a
  hwx7_1 : ∀ i : grid7.Coords, EltTy.bits .f32 = 32 ∨ (Rect.block (s := S640000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S640000x128.size a
  hwx7_2 : ∀ i : grid7.Coords, EltTy.bits .f32 = 32 ∨ (Rect.block (s := S640000x128) S10000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v66) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v68) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v76) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v30) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v77) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v80) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v83) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v84) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S128 : Shape := ⟨1, ![128]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S640000, .f32⟩
  | .hbm, ⟨48, _⟩ => ⟨S640000, .f32⟩
  | .hbm, ⟨49, _⟩ => ⟨S1x128x128, .f32⟩
  | .hbm, ⟨50, _⟩ => ⟨S128x128, .f32⟩
  | .hbm, ⟨51, _⟩ => ⟨S100000x128, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S640000x1, .f32⟩
  | .hbm, ⟨62, _⟩ => ⟨S640000x128, .f32⟩
  | .hbm, ⟨63, _⟩ => ⟨S640000x128, .f32⟩
  | .hbm, ⟨64, _⟩ => ⟨S_, .f32⟩
  | .hbm, ⟨65, _⟩ => ⟨S100000x128, .f32⟩
  | .hbm, ⟨66, _⟩ => ⟨S640000x1, .i32⟩
  | .hbm, ⟨67, _⟩ => ⟨S100000x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S1x128x128, .f32⟩
  | .hbm, ⟨77, _⟩ => ⟨S128x128, .f32⟩
  | .hbm, ⟨78, _⟩ => ⟨S100000x128, .f32⟩
  | .hbm, ⟨79, _⟩ => ⟨S_, .i32⟩
  | .hbm, ⟨80, _⟩ => ⟨S640000, .i32⟩
  | .hbm, ⟨81, _⟩ => ⟨S640000, .i1⟩
  | .hbm, ⟨82, _⟩ => ⟨S_, .i32⟩
  | .hbm, ⟨83, _⟩ => ⟨S640000, .i32⟩
  | .hbm, ⟨84, _⟩ => ⟨S640000, .i32⟩
  | .hbm, ⟨85, _⟩ => ⟨S640000, .i32⟩
  | .hbm, ⟨86, _⟩ => ⟨S640000x1, .i32⟩
  | .hbm, ⟨87, _⟩ => ⟨S640000x128, .f32⟩
  | .hbm, ⟨88, _⟩ => ⟨S640000x1, .f32⟩
  | .hbm, ⟨89, _⟩ => ⟨S640000x128, .f32⟩
  | .hbm, ⟨90, _⟩ => ⟨S640000x128, .f32⟩
  | .hbm, ⟨91, _⟩ => ⟨S_, .f32⟩
  | .hbm, ⟨92, _⟩ => ⟨S100000x128, .f32⟩
  | .hbm, ⟨93, _⟩ => ⟨S640000x1, .i32⟩
  | .hbm, ⟨94, _⟩ => ⟨S100000x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S1x128x128, .f32⟩
  | .hbm, ⟨104, _⟩ => ⟨S128x128, .f32⟩
  | .hbm, ⟨105, _⟩ => ⟨S100000x128, .f32⟩
  | .hbm, ⟨106, _⟩ => ⟨S_, .i32⟩
  | .hbm, ⟨107, _⟩ => ⟨S640000, .i32⟩
  | .hbm, ⟨108, _⟩ => ⟨S640000, .i1⟩
  | .hbm, ⟨109, _⟩ => ⟨S_, .i32⟩
  | .hbm, ⟨110, _⟩ => ⟨S640000, .i32⟩
  | .hbm, ⟨111, _⟩ => ⟨S640000, .i32⟩
  | .hbm, ⟨112, _⟩ => ⟨S640000, .i32⟩
  | .hbm, ⟨113, _⟩ => ⟨S640000x1, .i32⟩
  | .hbm, ⟨114, _⟩ => ⟨S640000x128, .f32⟩
  | .hbm, ⟨115, _⟩ => ⟨S640000x1, .f32⟩
  | .hbm, ⟨116, _⟩ => ⟨S640000x128, .f32⟩
  | .hbm, ⟨117, _⟩ => ⟨S640000x128, .f32⟩
  | .hbm, ⟨118, _⟩ => ⟨S_, .f32⟩
  | .hbm, ⟨119, _⟩ => ⟨S100000x128, .f32⟩
  | .hbm, ⟨120, _⟩ => ⟨S640000x1, .i32⟩
  | .hbm, ⟨121, _⟩ => ⟨S100000x128, .f32⟩
  | .hbm, ⟨122, _⟩ => ⟨S1x128, .f32⟩
  | .hbm, ⟨123, _⟩ => ⟨S128, .f32⟩
  | .hbm, ⟨124, _⟩ => ⟨S1x128, .f32⟩
  | .hbm, ⟨125, _⟩ => ⟨S100000x128, .f32⟩
  | .hbm, ⟨126, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call2_cst : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call3_cst : Ref sig .tc := ⟨.hbm, 100, rfl⟩
abbrev main_call3_v0 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_c_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  slices_S3x128x128_S1x128x128_0_0_0 : S3x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.ReferenceRun.lean ====
/-
  The reference program's run, read back as named stages.

  @main of the reference is a straight line of host operations (its calls of `where` and `relu` stand in place as their
  bodies' operations). Every weakly fair execution terminates with each buffer at the operations' composed value of the
  launch contents; the stages below name that composition as the mathematics has it:

    row, col      the two rows of the edge table, as vectors of E = 640000 indices (source, target);
    degree        the number of edges into each node: ones summed into N = 100000 places at the targets;
    invSqrtDeg    1 / sqrt(degree) where the degree is positive and 0 elsewhere;
    edgeNorm      invSqrtDeg[row] · invSqrtDeg[col], one factor per edge;
    wrapIndex     an index vector with negative entries moved up by N, as a column (what a gather's index operand holds);
    layerSum h    the rows of h gathered at the sources, scaled by the edge factors and summed into the targets;
    weights k, biasRows k   the k-th weight matrix, and the k-th bias repeated over all N rows;
    layer k       the k-th layer: x ↦ layerSum (x · W_k) + b_k, clipped at zero on the first two layers.
-/
import proofs.«177611_j47931835023574_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 122 operations, in order (a called function's operations stand in its call's place, spelt `TRef.…`). -/
abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_cst (constant S_ .f32 0x3F800000#32),
    unary main_cst main_v4 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S640000x1 ![0] bcast_S640000_S640000x1_0 : (⟨S640000, .i32⟩ : BufTy).Contents (Elt F) → (⟨S640000x1, .i32⟩ : BufTy).Contents (Elt F)),
    ternary main_v5 main_v6 main_v4 main_v7 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v11) (TRef.of (T := ⟨S100000, .f32⟩) main_v7) (TRef.of (T := ⟨S100000, .f32⟩) main_call0_v1) (TRef.of (T := ⟨S100000, .f32⟩) main_v12) select,
    unary main_v12 main_v13 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v9) (TRef.of (T := ⟨S100000, .f32⟩) main_v13) (TRef.of (T := ⟨S100000, .f32⟩) main_call1_v1) (TRef.of (T := ⟨S100000, .f32⟩) main_v14) select,
    nullary main_c (constantI S_ 32 0#32),
    unary main_c main_v15 (broadcastInDim S640000 ![] bcast_S_S640000 : (⟨S_, .i32⟩ : BufTy).Contents (Elt F) → (⟨S640000, .i32⟩ : BufTy).Contents (Elt F)),
    binary main_v1 main_v15 main_v16 (cmpi .slt : (⟨S640000, .i32⟩ : BufTy).Contents (Elt F) → (⟨S640000, .i32⟩ : BufTy).Contents (Elt F) → (⟨S640000, .i1⟩ : BufTy).Contents (Elt F)),
    nullary main_c_5 (constantI S_ 32 100000#32),
    unary main_c_5 main_v17 (broadcastInDim S640000 ![] bcast_S_S640000 : (⟨S_, .i32⟩ : BufTy).Contents (Elt F) → (⟨S640000, .i32⟩ : BufTy).Contents (Elt F)),
    binary main_v1 main_v17 main_v18 (addi : (⟨S640000, .i32⟩ : BufTy).Contents (Elt F) → (⟨S640000, .i32⟩ : BufTy).Contents (Elt F) → (⟨S640000, .i32⟩ : BufTy).Contents (Elt F)),
    ternary main_v16 main_v18 main_v1 main_v19 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v19 main_v20 (broadcastInDim S640000x1 ![0] bcast_S640000_S640000x1_0 : (⟨S640000, .i32⟩ : BufTy).Contents (Elt F) → (⟨S640000x1, .i32⟩ : BufTy).Contents (Elt F)),
    binary main_v14 main_v20 main_v21 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    nullary main_c_6 (constantI S_ 32 0#32),
    unary main_c_6 main_v22 (broadcastInDim S640000 ![] bcast_S_S640000 : (⟨S_, .i32⟩ : BufTy).Contents (Elt F) → (⟨S640000, .i32⟩ : BufTy).Contents (Elt F)),
    binary main_v3 main_v22 main_v23 (cmpi .slt : (⟨S640000, .i32⟩ : BufTy).Contents (Elt F) → (⟨S640000, .i32⟩ : BufTy).Contents (Elt F) → (⟨S640000, .i1⟩ : BufTy).Contents (Elt F)),
    nullary main_c_7 (constantI S_ 32 100000#32),
    unary main_c_7 main_v24 (broadcastInDim S640000 ![] bcast_S_S640000 : (⟨S_, .i32⟩ : BufTy).Contents (Elt F) → (⟨S640000, .i32⟩ : BufTy).Contents (Elt F)),
    binary main_v3 main_v24 main_v25 (addi : (⟨S640000, .i32⟩ : BufTy).Contents (Elt F) → (⟨S640000, .i32⟩ : BufTy).Contents (Elt F) → (⟨S640000, .i32⟩ : BufTy).Contents (Elt F)),
    ternary main_v23 main_v25 main_v3 main_v26 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v26 main_v27 (broadcastInDim S640000x1 ![0] bcast_S640000_S640000x1_0 : (⟨S640000, .i32⟩ : BufTy).Contents (Elt F) → (⟨S640000x1, .i32⟩ : BufTy).Contents (Elt F)),
    binary main_v14 main_v27 main_v28 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    binary main_v21 main_v28 main_v29 (mulf : (⟨S640000, .f32⟩ : BufTy).Contents (Elt F) → (⟨S640000, .f32⟩ : BufTy).Contents (Elt F) → (⟨S640000, .f32⟩ : BufTy).Contents (Elt F)),
    unary main_arg3 main_v30 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v30 main_v31 rfl shapeCasts_S1x128x128_S128x128,
    binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_8 (constantI S_ 32 0#32),
    unary main_c_8 main_v33 (broadcastInDim S640000 ![] bcast_S_S640000 : (⟨S_, .i32⟩ : BufTy).Contents (Elt F) → (⟨S640000, .i32⟩ : BufTy).Contents (Elt F)),
    binary main_v1 main_v33 main_v34 (cmpi .slt : (⟨S640000, .i32⟩ : BufTy).Contents (Elt F) → (⟨S640000, .i32⟩ : BufTy).Contents (Elt F) → (⟨S640000, .i1⟩ : BufTy).Contents (Elt F)),
    nullary main_c_9 (constantI S_ 32 100000#32),
    unary main_c_9 main_v35 (broadcastInDim S640000 ![] bcast_S_S640000 : (⟨S_, .i32⟩ : BufTy).Contents (Elt F) → (⟨S640000, .i32⟩ : BufTy).Contents (Elt F)),
    binary main_v1 main_v35 main_v36 (addi : (⟨S640000, .i32⟩ : BufTy).Contents (Elt F) → (⟨S640000, .i32⟩ : BufTy).Contents (Elt F) → (⟨S640000, .i32⟩ : BufTy).Contents (Elt F)),
    ternary main_v34 main_v36 main_v1 main_v37 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v37 main_v38 (broadcastInDim S640000x1 ![0] bcast_S640000_S640000x1_0 : (⟨S640000, .i32⟩ : BufTy).Contents (Elt F) → (⟨S640000x1, .i32⟩ : BufTy).Contents (Elt F)),
    binary main_v32 main_v38 main_v39 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    unary main_v29 main_v40 (broadcastInDim S640000x1 ![0] bcast_S640000_S640000x1_0 : (⟨S640000, .f32⟩ : BufTy).Contents (Elt F) → (⟨S640000x1, .f32⟩ : BufTy).Contents (Elt F)),
    unary main_v40 main_v41 (broadcastInDim S640000x128 ![0, 1] bcast_S640000x1_S640000x128_0_1 : (⟨S640000x1, .f32⟩ : BufTy).Contents (Elt F) → (⟨S640000x128, .f32⟩ : BufTy).Contents (Elt F)),
    binary main_v39 main_v41 main_v42 (mulf : (⟨S640000x128, .f32⟩ : BufTy).Contents (Elt F) → (⟨S640000x128, .f32⟩ : BufTy).Contents (Elt F) → (⟨S640000x128, .f32⟩ : BufTy).Contents (Elt F)),
    nullary main_cst_10 (constant S_ .f32 0x00000000#32),
    unary main_cst_10 main_v43 (broadcastInDim S100000x128 ![] bcast_S_S100000x128 : (⟨S_, .f32⟩ : BufTy).Contents (Elt F) → (⟨S100000x128, .f32⟩ : BufTy).Contents (Elt F)),
    unary main_v3 main_v44 (broadcastInDim S640000x1 ![0] bcast_S640000_S640000x1_0 : (⟨S640000, .i32⟩ : BufTy).Contents (Elt F) → (⟨S640000x1, .i32⟩ : BufTy).Contents (Elt F)),
    ternary main_v43 main_v44 main_v42 main_v45 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg4 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v45 main_v49 main_v50 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v50) (TRef.of (T := ⟨S100000x128, .f32⟩) main_call2_v0) (TRef.of (T := ⟨S100000x128, .f32⟩) main_v51) maximumf,
    unary main_arg3 main_v52 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v52 main_v53 rfl shapeCasts_S1x128x128_S128x128,
    binary main_v51 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_11 (constantI S_ 32 0#32),
    unary main_c_11 main_v55 (broadcastInDim S640000 ![] bcast_S_S640000 : (⟨S_, .i32⟩ : BufTy).Contents (Elt F) → (⟨S640000, .i32⟩ : BufTy).Contents (Elt F)),
    binary main_v1 main_v55 main_v56 (cmpi .slt : (⟨S640000, .i32⟩ : BufTy).Contents (Elt F) → (⟨S640000, .i32⟩ : BufTy).Contents (Elt F) → (⟨S640000, .i1⟩ : BufTy).Contents (Elt F)),
    nullary main_c_12 (constantI S_ 32 100000#32),
    unary main_c_12 main_v57 (broadcastInDim S640000 ![] bcast_S_S640000 : (⟨S_, .i32⟩ : BufTy).Contents (Elt F) → (⟨S640000, .i32⟩ : BufTy).Contents (Elt F)),
    binary main_v1 main_v57 main_v58 (addi : (⟨S640000, .i32⟩ : BufTy).Contents (Elt F) → (⟨S640000, .i32⟩ : BufTy).Contents (Elt F) → (⟨S640000, .i32⟩ : BufTy).Contents (Elt F)),
    ternary main_v56 main_v58 main_v1 main_v59 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v59 main_v60 (broadcastInDim S640000x1 ![0] bcast_S640000_S640000x1_0 : (⟨S640000, .i32⟩ : BufTy).Contents (Elt F) → (⟨S640000x1, .i32⟩ : BufTy).Contents (Elt F)),
    binary main_v54 main_v60 main_v61 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    unary main_v29 main_v62 (broadcastInDim S640000x1 ![0] bcast_S640000_S640000x1_0 : (⟨S640000, .f32⟩ : BufTy).Contents (Elt F) → (⟨S640000x1, .f32⟩ : BufTy).Contents (Elt F)),
    unary main_v62 main_v63 (broadcastInDim S640000x128 ![0, 1] bcast_S640000x1_S640000x128_0_1 : (⟨S640000x1, .f32⟩ : BufTy).Contents (Elt F) → (⟨S640000x128, .f32⟩ : BufTy).Contents (Elt F)),
    binary main_v61 main_v63 main_v64 (mulf : (⟨S640000x128, .f32⟩ : BufTy).Contents (Elt F) → (⟨S640000x128, .f32⟩ : BufTy).Contents (Elt F) → (⟨S640000x128, .f32⟩ : BufTy).Contents (Elt F)),
    nullary main_cst_13 (constant S_ .f32 0x00000000#32),
    unary main_cst_13 main_v65 (broadcastInDim S100000x128 ![] bcast_S_S100000x128 : (⟨S_, .f32⟩ : BufTy).Contents (Elt F) → (⟨S100000x128, .f32⟩ : BufTy).Contents (Elt F)),
    unary main_v3 main_v66 (broadcastInDim S640000x1 ![0] bcast_S640000_S640000x1_0 : (⟨S640000, .i32⟩ : BufTy).Contents (Elt F) → (⟨S640000x1, .i32⟩ : BufTy).Contents (Elt F)),
    ternary main_v65 main_v66 main_v64 main_v67 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg4 main_v68 ((extractStridedSlice S1x128 ![1, 0] · slices_S3x128_S1x128_1_0) : (⟨S3x128, .f32⟩ : BufTy).Contents (Elt F) → (⟨S1x128, .f32⟩ : BufTy).Contents (Elt F)),
    reshape main_v68 main_v69 rfl shapeCasts_S1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v67 main_v71 main_v72 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v72) (TRef.of (T := ⟨S100000x128, .f32⟩) main_call3_v0) (TRef.of (T := ⟨S100000x128, .f32⟩) main_v73) maximumf,
    unary main_arg3 main_v74 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v74 main_v75 rfl shapeCasts_S1x128x128_S128x128,
    binary main_v73 main_v75 main_v76 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v77 (broadcastInDim S640000 ![] bcast_S_S640000 : (⟨S_, .i32⟩ : BufTy).Contents (Elt F) → (⟨S640000, .i32⟩ : BufTy).Contents (Elt F)),
    binary main_v1 main_v77 main_v78 (cmpi .slt : (⟨S640000, .i32⟩ : BufTy).Contents (Elt F) → (⟨S640000, .i32⟩ : BufTy).Contents (Elt F) → (⟨S640000, .i1⟩ : BufTy).Contents (Elt F)),
    nullary main_c_15 (constantI S_ 32 100000#32),
    unary main_c_15 main_v79 (broadcastInDim S640000 ![] bcast_S_S640000 : (⟨S_, .i32⟩ : BufTy).Contents (Elt F) → (⟨S640000, .i32⟩ : BufTy).Contents (Elt F)),
    binary main_v1 main_v79 main_v80 (addi : (⟨S640000, .i32⟩ : BufTy).Contents (Elt F) → (⟨S640000, .i32⟩ : BufTy).Contents (Elt F) → (⟨S640000, .i32⟩ : BufTy).Contents (Elt F)),
    ternary main_v78 main_v80 main_v1 main_v81 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v81 main_v82 (broadcastInDim S640000x1 ![0] bcast_S640000_S640000x1_0 : (⟨S640000, .i32⟩ : BufTy).Contents (Elt F) → (⟨S640000x1, .i32⟩ : BufTy).Contents (Elt F)),
    binary main_v76 main_v82 main_v83 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    unary main_v29 main_v84 (broadcastInDim S640000x1 ![0] bcast_S640000_S640000x1_0 : (⟨S640000, .f32⟩ : BufTy).Contents (Elt F) → (⟨S640000x1, .f32⟩ : BufTy).Contents (Elt F)),
    unary main_v84 main_v85 (broadcastInDim S640000x128 ![0, 1] bcast_S640000x1_S640000x128_0_1 : (⟨S640000x1, .f32⟩ : BufTy).Contents (Elt F) → (⟨S640000x128, .f32⟩ : BufTy).Contents (Elt F)),
    binary main_v83 main_v85 main_v86 (mulf : (⟨S640000x128, .f32⟩ : BufTy).Contents (Elt F) → (⟨S640000x128, .f32⟩ : BufTy).Contents (Elt F) → (⟨S640000x128, .f32⟩ : BufTy).Contents (Elt F)),
    nullary main_cst_16 (constant S_ .f32 0x00000000#32),
    unary main_cst_16 main_v87 (broadcastInDim S100000x128 ![] bcast_S_S100000x128 : (⟨S_, .f32⟩ : BufTy).Contents (Elt F) → (⟨S100000x128, .f32⟩ : BufTy).Contents (Elt F)),
    unary main_v3 main_v88 (broadcastInDim S640000x1 ![0] bcast_S640000_S640000x1_0 : (⟨S640000, .i32⟩ : BufTy).Contents (Elt F) → (⟨S640000x1, .i32⟩ : BufTy).Contents (Elt F)),
    ternary main_v87 main_v88 main_v86 main_v89 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    unary main_arg4 main_v90 ((extractStridedSlice S1x128 ![2, 0] · slices_S3x128_S1x128_2_0) : (⟨S3x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v89 main_v93 main_v94 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩

/-! ## The stages -/

/-- The sources of the edges. -/
def row (x1 : (⟨S2x640000, .i32⟩ : BufTy).Contents (Elt F)) : (⟨S640000, .i32⟩ : BufTy).Contents (Elt F) :=
  shapeCast _ (extractStridedSlice S1x640000 ![0, 0] x1 slices_S2x640000_S1x640000_0_0) shapeCasts_S1x640000_S640000
/-- The targets of the edges. -/
def col (x1 : (⟨S2x640000, .i32⟩ : BufTy).Contents (Elt F)) : (⟨S640000, .i32⟩ : BufTy).Contents (Elt F) :=
  shapeCast _ (extractStridedSlice S1x640000 ![1, 0] x1 slices_S2x640000_S1x640000_1_0) shapeCasts_S1x640000_S640000

/-- Zero at every node. -/
def zeroNodes : (⟨S100000, .f32⟩ : BufTy).Contents (Elt F) :=
  broadcastInDim S100000 ![] bcast_S_S100000 (constant (F := F) S_ .f32 0x00000000#32)

/-- The number of edges into each node. -/
def degree (x1 : (⟨S2x640000, .i32⟩ : BufTy).Contents (Elt F)) : (⟨S100000, .f32⟩ : BufTy).Contents (Elt F) :=
  Host.scatterAdd (F := F) scatter_S100000_S640000x1_S640000_n_0_0_1 (zeroNodes (F := F))
    (broadcastInDim S640000x1 ![0] bcast_S640000_S640000x1_0 (col (F := F) x1))
    (broadcastInDim S640000 ![] bcast_S_S640000 (constant (F := F) S_ .f32 0x3F800000#32))

/-- Where the degree is positive. -/
def hasEdge (x1 : (⟨S2x640000, .i32⟩ : BufTy).Contents (Elt F)) : (⟨S100000, .i1⟩ : BufTy).Contents (Elt F) :=
  cmpf (F := F) .ogt (degree (F := F) x1) (zeroNodes (F := F))

/-- 1 / sqrt(degree) where the degree is positive, 0 elsewhere. -/
def invSqrtDeg (x1 : (⟨S2x640000, .i32⟩ : BufTy).Contents (Elt F)) : (⟨S100000, .f32⟩ : BufTy).Contents (Elt F) :=
  select (hasEdge (F := F) x1)
    (Host.rsqrt (F := F) (select (hasEdge (F := F) x1) (degree (F := F) x1)
      (broadcastInDim S100000 ![] bcast_S_S100000 (constant (F := F) S_ .f32 0x3F800000#32))))
    (zeroNodes (F := F))

/-- An index vector, negative entries moved up by the number of nodes, as the column a gather reads its indices from. -/
def wrapIndex (r : (⟨S640000, .i32⟩ : BufTy).Contents (Elt F)) : (⟨S640000x1, .i32⟩ : BufTy).Contents (Elt F) :=
  broadcastInDim S640000x1 ![0] bcast_S640000_S640000x1_0
    (select (cmpi .slt r (broadcastInDim S640000 ![] bcast_S_S640000 (constantI S_ 32 0#32)))
      (addi r (broadcastInDim S640000 ![] bcast_S_S640000 (constantI S_ 32 100000#32))) r)

/-- One factor per edge: invSqrtDeg at its source times invSqrtDeg at its target. -/
def edgeNorm (x1 : (⟨S2x640000, .i32⟩ : BufTy).Contents (Elt F)) : (⟨S640000, .f32⟩ : BufTy).Contents (Elt F) :=
  mulf (Host.gather gather_S100000_S640000x1_S640000_n_0_n_n_0_1_1 (invSqrtDeg (F := F) x1) (wrapIndex (F := F) (row (F := F) x1)))
    (Host.gather gather_S100000_S640000x1_S640000_n_0_n_n_0_1_1 (invSqrtDeg (F := F) x1) (wrapIndex (F := F) (col (F := F) x1)))

/-- The rows of `h` at the given (wrapped) indices. -/
def gatherRows (h : (⟨S100000x128, .f32⟩ : BufTy).Contents (Elt F)) (idx : (⟨S640000x1, .i32⟩ : BufTy).Contents (Elt F)) : (⟨S640000x128, .f32⟩ : BufTy).Contents (Elt F) :=
  Host.gather gather_S100000x128_S640000x1_S640000x128_1_0_n_n_0_1_1128 h idx

/-- The messages summed into their targets, from zero. -/
def sumInto (x1 : (⟨S2x640000, .i32⟩ : BufTy).Contents (Elt F)) (msg : (⟨S640000x128, .f32⟩ : BufTy).Contents (Elt F)) : (⟨S100000x128, .f32⟩ : BufTy).Contents (Elt F) :=
  Host.scatterAdd (F := F) scatter_S100000x128_S640000x1_S640000x128_1_0_0_1
    (broadcastInDim S100000x128 ![] bcast_S_S100000x128 (constant (F := F) S_ .f32 0x00000000#32))
    (broadcastInDim S640000x1 ![0] bcast_S640000_S640000x1_0 (col (F := F) x1)) msg

/-- The edge factors as a column repeated over the 128 features. -/
def normBroadcast (x1 : (⟨S2x640000, .i32⟩ : BufTy).Contents (Elt F)) : (⟨S640000x128, .f32⟩ : BufTy).Contents (Elt F) :=
  broadcastInDim S640000x128 ![0, 1] bcast_S640000x1_S640000x128_0_1
    (broadcastInDim S640000x1 ![0] bcast_S640000_S640000x1_0 (edgeNorm (F := F) x1))

/-- Gather at the sources, scale by the edge factors, sum into the targets. -/
def layerSum (x1 : (⟨S2x640000, .i32⟩ : BufTy).Contents (Elt F)) (h : (⟨S100000x128, .f32⟩ : BufTy).Contents (Elt F)) : (⟨S100000x128, .f32⟩ : BufTy).Contents (Elt F) :=
  sumInto (F := F) x1 (mulf (gatherRows (F := F) h (wrapIndex (F := F) (row (F := F) x1))) (normBroadcast (F := F) x1))

/-- The product with a weight matrix. -/
def product (x : (⟨S100000x128, .f32⟩ : BufTy).Contents (Elt F)) (w : (⟨S128x128, .f32⟩ : BufTy).Contents (Elt F)) : (⟨S100000x128, .f32⟩ : BufTy).Contents (Elt F) :=
  Host.dotGeneral (F := F) dot_S100000x128_S128x128_S100000x128_1_0_0_1_n_n none x w

def weights0 (x3 : (⟨S3x128x128, .f32⟩ : BufTy).Contents (Elt F)) : (⟨S128x128, .f32⟩ : BufTy).Contents (Elt F) :=
  shapeCast _ (extractStridedSlice S1x128x128 ![0, 0, 0] x3 slices_S3x128x128_S1x128x128_0_0_0) shapeCasts_S1x128x128_S128x128
def weights1 (x3 : (⟨S3x128x128, .f32⟩ : BufTy).Contents (Elt F)) : (⟨S128x128, .f32⟩ : BufTy).Contents (Elt F) :=
  shapeCast _ (extractStridedSlice S1x128x128 ![1, 0, 0] x3 slices_S3x128x128_S1x128x128_1_0_0) shapeCasts_S1x128x128_S128x128
def weights2 (x3 : (⟨S3x128x128, .f32⟩ : BufTy).Contents (Elt F)) : (⟨S128x128, .f32⟩ : BufTy).Contents (Elt F) :=
  shapeCast _ (extractStridedSlice S1x128x128 ![2, 0, 0] x3 slices_S3x128x128_S1x128x128_2_0_0) shapeCasts_S1x128x128_S128x128

def bias0 (x4 : (⟨S3x128, .f32⟩ : BufTy).Contents (Elt F)) : (⟨S128, .f32⟩ : BufTy).Contents (Elt F) :=
  shapeCast _ (extractStridedSlice S1x128 ![0, 0] x4 slices_S3x128_S1x128_0_0) shapeCasts_S1x128_S128
def bias1 (x4 : (⟨S3x128, .f32⟩ : BufTy).Contents (Elt F)) : (⟨S128, .f32⟩ : BufTy).Contents (Elt F) :=
  shapeCast _ (extractStridedSlice S1x128 ![1, 0] x4 slices_S3x128_S1x128_1_0) shapeCasts_S1x128_S128
def bias2 (x4 : (⟨S3x128, .f32⟩ : BufTy).Contents (Elt F)) : (⟨S128, .f32⟩ : BufTy).Contents (Elt F) :=
  shapeCast _ (extractStridedSlice S1x128 ![2, 0] x4 slices_S3x128_S1x128_2_0) shapeCasts_S1x128_S128

/-- A bias vector repeated over all rows. -/
def biasRows (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The clip at zero. -/
def clip (y : (⟨S100000x128, .f32⟩ : BufTy).Contents (Elt F)) : (⟨S100000x128, .f32⟩ : BufTy).Contents (Elt F) :=
  maximumf y (broadcastInDim S100000x128 ![] bcast_S_S100000x128 (constant (F := F) S_ .f32 0x00000000#32))

/-- The first layer's output. -/
def layer0 (x0 : (⟨S100000x128, .f32⟩ : BufTy).Contents (Elt F)) (x1 : (⟨S2x640000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  clip (F := F) (addf (layerSum (F := F) x1 (product (F := F) x0 (weights0 (F := F) x3))) (biasRows (F := F) (bias0 (F := F) x4)))
/-- The second layer's output. -/
def layer1 (x0 : (⟨S100000x128, .f32⟩ : BufTy).Contents (Elt F)) (x1 : (⟨S2x640000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  clip (F := F) (addf (layerSum (F := F) x1 (product (F := F) (layer0 (F := F) x0 x1 x3 x4) (weights1 (F := F) x3))) (biasRows (F := F) (bias1 (F := F) x4)))
/-- The result: the third layer's output, not clipped. -/
def layer2 (x0 : (⟨S100000x128, .f32⟩ : BufTy).Contents (Elt F)) (x1 : (⟨S2x640000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  addf (layerSum (F := F) x1 (product (F := F) (layer1 (F := F) x0 x1 x3 x4) (weights2 (F := F) x3))) (biasRows (F := F) (bias2 (F := F) x4))

/-! ## The run -/

set_option maxRecDepth 8192 in
set_option maxHeartbeats 48800000 in
/-- On every device, from any memory with zero counters: every weakly fair execution of @main terminates with the result
    buffer at `layer2` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = layer2 (F := F) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v94).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Hand

end
-- ==== Proof.KernelRun.lean ====
/-
  The kernel's program run from the launch to the return, with the result buffer read.

  @main is nine kernel regions among stretches of host operations. Its run is the library's launch over those segments:
  every weakly fair execution terminates, nothing faulting, in a state where every buffer that outlives the regions holds
  the last segment boundary's contents. The frame certificate reads the five argument buffers off that state; here the
  result buffer is read off it as well, at the boundary contents after the ninth region.
-/
import proofs.«177611_j47931835023574_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    segment boundary gives it and the argument buffers as launched. -/
theorem run_result : θ_run defs (onTc (τ := τ) (main (F := F))) ⟨m, fun _ => 0, ρ⟩ (fun r => ∀ c : Dev nD,
      r.2.mem ((c.tc : Thread nD τ).loc main_v84) = W22 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v84 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c)⟩)

end Cert.KernelIdeal.Hand

end
-- ==== Proof.LibRowwiseStages.lean ====
/-
  Row-wise stages on the extended reals, for any extents, each stated as ONE function of whole arrays, entry by entry —
  the three stages of a graph-convolution layer that a kernel computes block by block over a grid of row blocks:
    * the product of an [A, K] matrix with a [K, B] matrix, (X · W)[r, q] = Σ_k X[r, k] · W[k, q];
    * the rows of an [A, B] matrix scaled by an [A, 1] column of factors, (G ⊙ s)[r, q] = G[r, q] · s[r, 0];
    * a [1, B] row added to every row of an [A, B] matrix, with and without the clip at zero.
  A block of the result of any of the three depends only on the same rows of the first operand, which is why a
  grid over row blocks computes them: the `_read` lemmas say that the stage of a block's arrays at an entry is the stage of
  the whole arrays at the entry the block's entry sits at, given where the block's entries sit.
-/
import Idealize.ShloMosaic.Lib.ValueIdx
import Idealize.ShloMosaic.PureOps.Ideal.Laws

noncomputable section

namespace LibRowwiseStages

open Idealize.ShloMosaic Idealize.ShloMosaic.ValueIdx

/-- (X · W)[r, q] = Σ_k X[r, k] · W[k, q]. -/
def matProd {A K B : ℕ} (X : FVec Ideal ⟨2, ![A, K]⟩ .f32) (W : FVec Ideal ⟨2, ![K, B]⟩ .f32) :
    FVec Ideal ⟨2, ![A, B]⟩ .f32 :=
  fun j => ∑ k : Fin K, X (ix2 (n0 := A) (n1 := K) (j 0) k) * W (ix2 (n0 := K) (n1 := B) k (j 1))

/-- (G ⊙ s)[r, q] = G[r, q] · s[r, 0]. -/
def rowScale {A B : ℕ} (G : FVec Ideal ⟨2, ![A, B]⟩ .f32) (s : FVec Ideal ⟨2, ![A, 1]⟩ .f32) :
    FVec Ideal ⟨2, ![A, B]⟩ .f32 :=
  fun j => G j * s (ix2 (n0 := A) (n1 := 1) (j 0) (0 : Fin 1))

/-- (X + b)[r, q] = X[r, q] + b[0, q]. -/
def addRow {A B : ℕ} (X : FVec Ideal ⟨2, ![A, B]⟩ .f32) (b : FVec Ideal ⟨2, ![1, B]⟩ .f32) :
    FVec Ideal ⟨2, ![A, B]⟩ .f32 :=
  fun j => X j + b (ix2 (n0 := 1) (n1 := B) (0 : Fin 1) (j 1))

/-- max(X[r, q] + b[0, q], 0): the zero is the f32 word of all zero bits. -/
def addRowClip {A B : ℕ} (X : FVec Ideal ⟨2, ![A, B]⟩ .f32) (b : FVec Ideal ⟨2, ![1, B]⟩ .f32) :
    FVec Ideal ⟨2, ![A, B]⟩ .f32 :=
  fun j => max (X j + b (ix2 (n0 := 1) (n1 := B) (0 : Fin 1) (j 1))) (Ideal.ofBits .f32 0x00000000#32)

theorem matProd_apply {A K B : ℕ} (X : FVec Ideal ⟨2, ![A, K]⟩ .f32) (W : FVec Ideal ⟨2, ![K, B]⟩ .f32)
    (r : Fin A) (q : Fin B) :
    matProd X W (ix2 r q) = ∑ k : Fin K, X (ix2 r k) * W (ix2 k q) := rfl

theorem rowScale_apply {A B : ℕ} (G : FVec Ideal ⟨2, ![A, B]⟩ .f32) (s : FVec Ideal ⟨2, ![A, 1]⟩ .f32)
    (r : Fin A) (q : Fin B) :
    rowScale G s (ix2 r q) = G (ix2 r q) * s (ix2 r (0 : Fin 1)) := rfl

theorem addRow_apply {A B : ℕ} (X : FVec Ideal ⟨2, ![A, B]⟩ .f32) (b : FVec Ideal ⟨2, ![1, B]⟩ .f32)
    (r : Fin A) (q : Fin B) :
    addRow X b (ix2 r q) = X (ix2 r q) + b (ix2 (0 : Fin 1) q) := rfl

theorem addRowClip_apply {A B : ℕ} (X : FVec Ideal ⟨2, ![A, B]⟩ .f32) (b : FVec Ideal ⟨2, ![1, B]⟩ .f32)
    (r : Fin A) (q : Fin B) :
    addRowClip X b (ix2 r q) = max (X (ix2 r q) + b (ix2 (0 : Fin 1) q)) (Ideal.ofBits .f32 0x00000000#32) := rfl

/-! ## A block of a stage is the stage of the blocks

If a block's entries are entries of the whole arrays — the first operand's rows where the output's rows are, the second
operand where the stage reads it — then the stage of the blocks at an entry is the stage of the whole arrays at the entry
the block's entry sits at. -/

theorem matProd_read {a A K B : ℕ} (x0 : FVec Ideal ⟨2, ![a, K]⟩ .f32) (x1 : FVec Ideal ⟨2, ![K, B]⟩ .f32)
    (X : FVec Ideal ⟨2, ![A, K]⟩ .f32) (W : FVec Ideal ⟨2, ![K, B]⟩ .f32)
    (j : (⟨2, ![a, B]⟩ : Shape).Idx) (i : (⟨2, ![A, B]⟩ : Shape).Idx)
    (h0 : ∀ k : Fin K, x0 (ix2 (n0 := a) (n1 := K) (j 0) k) = X (ix2 (n0 := A) (n1 := K) (i 0) k))
    (h1 : ∀ k : Fin K, x1 (ix2 (n0 := K) (n1 := B) k (j 1)) = W (ix2 (n0 := K) (n1 := B) k (i 1))) :
    matProd x0 x1 j = matProd X W i :=
  Finset.sum_congr rfl fun k _ => by rw [h0 k, h1 k]

theorem rowScale_read {a A B : ℕ} (x0 : FVec Ideal ⟨2, ![a, B]⟩ .f32) (x1 : FVec Ideal ⟨2, ![a, 1]⟩ .f32)
    (G : FVec Ideal ⟨2, ![A, B]⟩ .f32) (s : FVec Ideal ⟨2, ![A, 1]⟩ .f32)
    (j : (⟨2, ![a, B]⟩ : Shape).Idx) (i : (⟨2, ![A, B]⟩ : Shape).Idx)
    (h0 : x0 j = G i)
    (h1 : x1 (ix2 (n0 := a) (n1 := 1) (j 0) (0 : Fin 1)) = s (ix2 (n0 := A) (n1 := 1) (i 0) (0 : Fin 1))) :
    rowScale x0 x1 j = rowScale G s i := by
  show x0 j * x1 _ = G i * s _
  rw [h0, h1]

theorem addRow_read {a A B : ℕ} (x0 : FVec Ideal ⟨2, ![a, B]⟩ .f32) (x1 : FVec Ideal ⟨2, ![1, B]⟩ .f32)
    (X : FVec Ideal ⟨2, ![A, B]⟩ .f32) (b : FVec Ideal ⟨2, ![1, B]⟩ .f32)
    (j : (⟨2, ![a, B]⟩ : Shape).Idx) (i : (⟨2, ![A, B]⟩ : Shape).Idx)
    (h0 : x0 j = X i)
    (h1 : x1 (ix2 (n0 := 1) (n1 := B) (0 : Fin 1) (j 1)) = b (ix2 (n0 := 1) (n1 := B) (0 : Fin 1) (i 1))) :
    addRow x0 x1 j = addRow X b i := by
  show x0 j + x1 _ = X i + b _
  rw [h0, h1]

theorem addRowClip_read {a A B : ℕ} (x0 : FVec Ideal ⟨2, ![a, B]⟩ .f32) (x1 : FVec Ideal ⟨2, ![1, B]⟩ .f32)
    (X : FVec Ideal ⟨2, ![A, B]⟩ .f32) (b : FVec Ideal ⟨2, ![1, B]⟩ .f32)
    (j : (⟨2, ![a, B]⟩ : Shape).Idx) (i : (⟨2, ![A, B]⟩ : Shape).Idx)
    (h0 : x0 j = X i)
    (h1 : x1 (ix2 (n0 := 1) (n1 := B) (0 : Fin 1) (j 1)) = b (ix2 (n0 := 1) (n1 := B) (0 : Fin 1) (i 1))) :
    addRowClip x0 x1 j = addRowClip X b i := by
  show max (x0 j + x1 _) _ = max (X i + b _) _
  rw [h0, h1]

end LibRowwiseStages

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibColumnInDim.lean ====
/-
  A vector placed as a column, and a column repeated along the rows' entries, both as `broadcast_in_dim`, read at an
  entry, for any element type.

  A vector of length n mapped onto axis 0 of the shape [n, 1] reads, at (r, 0), the vector's entry r. A column [a, 1]
  mapped onto axes (0, 1) of [a, b] reads, at (p, q), the column's entry p: the unit axis is the one repeated.
-/
import Idealize.ShloMosaic.Lib.ValueIdx
import Idealize.ShloMosaic.Lib.Pipeline.Value

noncomputable section

namespace LibColumnInDim

open Idealize.ShloMosaic Idealize.ShloMosaic.ValueIdx

variable {α : Type}

/-- [n] on axis 0 of [n, 1]: entry (r, z) is the vector's entry r. -/
theorem bcast_n_n1_apply {n : ℕ} (h : (⟨1, ![n]⟩ : Shape).BroadcastsInDim ⟨2, ![n, 1]⟩ (![0] : Fin 1 → Fin 2))
    (x : (⟨1, ![n]⟩ : Shape).Idx → α) (r : Fin n) (z : Fin 1) :
    broadcastInDim ⟨2, ![n, 1]⟩ (![0] : Fin 1 → Fin 2) h x (ix2 r z) = x (ix1 r) := by
  refine broadcastInDim_apply (![0] : Fin 1 → Fin 2) h x (ix2 r z) (ix1 r) fun ax => ?_
  match ax with
  | ⟨0, _⟩ =>
    show r.val = if n = 1 then 0 else r.val
    split
    · have := r.isLt; omega
    · rfl

/-- [a, 1] repeated over the columns of [a, b]: entry (p, q) is the column's entry p. -/
theorem bcast_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply (![0, 1] : Fin 2 → Fin 2) h x (ix2 p q) (ix2 p (0 : Fin 1)) fun ax => ?_
  match ax with
  | ⟨0, _⟩ =>
    show p.val = if a = 1 then 0 else p.val
    split
    · have := p.isLt; omega
    · rfl
  | ⟨1, _⟩ => rfl

end LibColumnInDim

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.LibUnitAxis.lean ====
/-
  A reshape that only adds a unit axis is a broadcast-in-dimensions, for any element type.

  A vector of length n reshaped to the column [n, 1] holds, at (r, 0), the vector's entry r — and so does the vector
  placed on axis 0 of [n, 1] by broadcast_in_dim. A vector of length b reshaped to the row [1, b] holds, at (0, q), the
  vector's entry q — and so does the vector placed on axis 1 of [1, b]. Two programs that differ only in which of the two
  they print (jnp's reshape against x[:, None] or x[None, :]) hold the same array.
-/
import Idealize.ShloMosaic.Lib.ValueIdx
import Idealize.ShloMosaic.Lib.Pipeline.Value
import proofs.«177611_j47931835023574_1_alg».proof.Proof.LibKeepdims
import proofs.«177611_j47931835023574_1_alg».proof.Proof.LibRowOps
import proofs.«177611_j47931835023574_1_alg».proof.Proof.LibColumnInDim
import proofs.«177611_j47931835023574_1_alg».proof.Proof.LibBatchLayouts

noncomputable section

namespace LibUnitAxis

open Idealize.ShloMosaic Idealize.ShloMosaic.ValueIdx

variable {α : Type}

/-- [n] reshaped to [n, 1] is [n] placed on axis 0 of [n, 1]. -/
theorem shapeCast_col_eq_bcast {n : ℕ} (y : (⟨1, ![n]⟩ : Shape).Idx → α)
    (h1 : (⟨1, ![n]⟩ : Shape).ShapeCasts ⟨2, ![n, 1]⟩)
    (h2 : (⟨1, ![n]⟩ : Shape).BroadcastsInDim ⟨2, ![n, 1]⟩ (![0] : Fin 1 → Fin 2)) :
    shapeCast ⟨2, ![n, 1]⟩ y h1 = broadcastInDim ⟨2, ![n, 1]⟩ (![0] : Fin 1 → Fin 2) h2 y := by
  funext i
  obtain ⟨r, z, rfl⟩ : ∃ (r : Fin n) (z : Fin 1), i = ix2 r z := ⟨i 0, i 1, eq_ix2 i⟩
  rw [LibKeepdims.shapeCast_col_apply, LibColumnInDim.bcast_n_n1_apply]

/-- [b] reshaped to [1, b] is [b] placed on axis 1 of [1, b]. -/
theorem shapeCast_row_eq_bcast {b : ℕ} (y : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ y h1 = broadcastInDim ⟨2, ![1, b]⟩ (![1] : Fin 1 → Fin 2) h2 y := by
  funext i
  obtain ⟨z, q, rfl⟩ : ∃ (z : Fin 1) (q : Fin b), i = ix2 z q := ⟨i 0, i 1, eq_ix2 i⟩
  rw [LibRowOps.shapeCast_row_apply, LibBatchLayouts.bcast_a_1a_apply]

end LibUnitAxis

end
-- ==== Proof.StageBridge.lean ====
/-
  The reference's host operations are the whole-array stages.

  On the extended reals the host's contraction of an [N, 128] matrix with a [128, 128] matrix is the matrix product,
  entry by entry the sum over the contracted position. A vector reshaped to a column (or to a row) is the vector placed
  on that axis, so the kernel program's reshaped edge factors and bias are the reference's; and a column repeated over
  the features times a matrix is the matrix's rows scaled, a row repeated over the nodes plus a matrix is the row added
  to every row, with the same clip at the zero word.
-/
import proofs.«177611_j47931835023574_1_alg».proof.Proof.ReferenceRun
import proofs.«177611_j47931835023574_1_alg».proof.KernelIdeal
import proofs.«177611_j47931835023574_1_alg».proof.Proof.LibRowwiseStages
import proofs.«177611_j47931835023574_1_alg».proof.Proof.LibMatIdx
import proofs.«177611_j47931835023574_1_alg».proof.Proof.LibUnitAxis
import proofs.«177611_j47931835023574_1_alg».proof.Proof.LibColumnInDim
import proofs.«177611_j47931835023574_1_alg».proof.Proof.LibBatchLayouts
import Idealize.ShloMosaic.Lib.ValueIdx
import Idealize.ShloMosaic.PureOps.Ideal.Laws

noncomputable section

namespace Cert.StageBridge

open Idealize.ShloMosaic Idealize.ShloMosaic.TcCoe Idealize.ShloMosaic.ValueIdx

/-! ## The contraction record of the reference's product -/

theorem lhs_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_pos (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_pos (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's contraction is the matrix product. -/
theorem product_eq (x : FVec Ideal Cert.ReferenceIdeal.S100000x128 .f32) (w : FVec Ideal Cert.ReferenceIdeal.S128x128 .f32) :
    Cert.ReferenceIdeal.Hand.product (F := Ideal) x w = LibRowwiseStages.matProd (A := 100000) (K := 128) (B := 128) x w := by
  funext j
  show Host.dotGeneral (F := Ideal) Cert.ReferenceIdeal.dot_S100000x128_S128x128_S100000x128_1_0_0_1_n_n none x w j = _
  exact LibMatIdx.dot2_apply (M := 100000) (K := 128) (N := 128) Cert.ReferenceIdeal.dot_S100000x128_S128x128_S100000x128_1_0_0_1_n_n rfl rfl lhs_row lhs_pos rhs_pos rhs_col none x w j

/-- Rows scaled by the edge factors reshaped to a column: the rows times the factors placed as a column and repeated
    over the features. -/
theorem scale_eq (G : FVec Ideal Cert.ReferenceIdeal.S640000x128 .f32) (n : FVec Ideal Cert.ReferenceIdeal.S640000 .f32)
    (h1 : Cert.KernelIdeal.S640000.ShapeCasts Cert.KernelIdeal.S640000x1) :
    LibRowwiseStages.rowScale (A := 640000) (B := 128) G (shapeCast Cert.KernelIdeal.S640000x1 n h1)
      = mulf G (broadcastInDim Cert.ReferenceIdeal.S640000x128 ![0, 1] Cert.ReferenceIdeal.Gen.bcast_S640000x1_S640000x128_0_1
          (broadcastInDim Cert.ReferenceIdeal.S640000x1 ![0] Cert.ReferenceIdeal.Gen.bcast_S640000_S640000x1_0 n)) := by
  rw [LibUnitAxis.shapeCast_col_eq_bcast (n := 640000) n h1 Cert.ReferenceIdeal.Gen.bcast_S640000_S640000x1_0]
  funext j
  obtain ⟨p, q, rfl⟩ : ∃ (p : Fin 640000) (q : Fin 128), j = ix2 p q := ⟨j 0, j 1, eq_ix2 j⟩
  rw [LibRowwiseStages.rowScale_apply, mulf_apply, LibColumnInDim.bcast_a1_ab_apply (a := 640000) (b := 128)]

/-- A bias reshaped to a row, added to every row: the bias placed as a row and repeated over the nodes, added. -/
theorem bias_eq (A : FVec Ideal Cert.ReferenceIdeal.S100000x128 .f32) (b : FVec Ideal Cert.ReferenceIdeal.S128 .f32)
    (h1 : Cert.KernelIdeal.S128.ShapeCasts Cert.KernelIdeal.S1x128) :
    LibRowwiseStages.addRow (A := 100000) (B := 128) A (shapeCast Cert.KernelIdeal.S1x128 b h1)
      = addf A (Cert.ReferenceIdeal.Hand.biasRows (F := Ideal) b) := by
  rw [LibUnitAxis.shapeCast_row_eq_bcast (b := 128) b h1 Cert.ReferenceIdeal.Gen.bcast_S128_S1x128_1]
  funext j
  obtain ⟨p, q, rfl⟩ : ∃ (p : Fin 100000) (q : Fin 128), j = ix2 p q := ⟨j 0, j 1, eq_ix2 j⟩
  unfold Cert.ReferenceIdeal.Hand.biasRows
  rw [LibRowwiseStages.addRow_apply, addf_apply, LibBatchLayouts.bcast_1a_na_apply (n := 100000) (a := 128)]

/-- … and the same under the clip at zero. -/
theorem biasClip_eq (A : FVec Ideal Cert.ReferenceIdeal.S100000x128 .f32) (b : FVec Ideal Cert.ReferenceIdeal.S128 .f32)
    (h1 : Cert.KernelIdeal.S128.ShapeCasts Cert.KernelIdeal.S1x128) :
    LibRowwiseStages.addRowClip (A := 100000) (B := 128) A (shapeCast Cert.KernelIdeal.S1x128 b h1)
      = Cert.ReferenceIdeal.Hand.clip (F := Ideal) (addf A (Cert.ReferenceIdeal.Hand.biasRows (F := Ideal) b)) := by
  rw [LibUnitAxis.shapeCast_row_eq_bcast (b := 128) b h1 Cert.ReferenceIdeal.Gen.bcast_S128_S1x128_1]
  funext j
  obtain ⟨p, q, rfl⟩ : ∃ (p : Fin 100000) (q : Fin 128), j = ix2 p q := ⟨j 0, j 1, eq_ix2 j⟩
  unfold Cert.ReferenceIdeal.Hand.clip Cert.ReferenceIdeal.Hand.biasRows
  rw [LibRowwiseStages.addRowClip_apply, maximumf_apply, addf_apply, LibBatchLayouts.bcast_1a_na_apply (n := 100000) (a := 128),
    LibBatchLayouts.bcast_scalar2_apply]
  rfl

end Cert.StageBridge

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«177611_j47931835023574_1_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.BlockValue.lean ====
/-
  What one grid point's body computes, as a function of the blocks it loads, on the extended reals.

  The product kernel multiplies its [5000, 128] block of rows by the whole [128, 128] weight matrix (the change of
  float format before the product is the identity on the extended reals, and the accumulator is the zero splat), so its
  block is the matrix product of the two blocks. The scale kernel multiplies every row of its [10000, 128] block by that
  row's entry of its [10000, 1] block of factors. The bias kernel adds its [1, 128] row to every row of its [5000, 128]
  block, and on the first two layers clips the sum at zero.
-/
import proofs.«177611_j47931835023574_1_alg».proof.Proof.Gen.KernelIdeal.Skeleton
import proofs.«177611_j47931835023574_1_alg».proof.Proof.LibRowwiseStages
import proofs.«177611_j47931835023574_1_alg».proof.Proof.LibMatmulIdx
import proofs.«177611_j47931835023574_1_alg».proof.Proof.LibColumnOps
import proofs.«177611_j47931835023574_1_alg».proof.Proof.LibRowOps
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.TcCoe Idealize.ShloMosaic.ValueIdx

/-! ## The product's contraction record: which operand entries meet at position k -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_pos (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_pos (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows with the weights, into the zero splat, is the matrix product of the two. -/
theorem matmul_zero (x0 : FVec Ideal S5000x128 .bf16) (x1 : FVec Ideal S128x128 .bf16) :
    matmul dot_S5000x128_S128x128_S5000x128_1_0_0_1_n_n none x0 x1 (constant S5000x128 .f32 0x00000000#32) = LibRowwiseStages.matProd (A := 5000) (K := 128) (B := 128) x0 x1 := by
  funext j
  exact LibMatmulIdx.matmul2_apply (M := 5000) (K := 128) (N := 128) dot_S5000x128_S128x128_S5000x128_1_0_0_1_n_n rfl rfl lhs_row lhs_pos rhs_pos rhs_col none x0 x1 j

/-! ## The three bodies -/

/-- Layer 0's product block. -/
theorem product0 (x0 : Vec Ideal S5000x128 .f32) (x1 : Vec Ideal S128x128 .f32) :
    k0_pay1 (F := Ideal) x0 x1 = LibRowwiseStages.matProd (A := 5000) (K := 128) (B := 128) x0 x1 := by
  unfold k0_pay1
  simp only [shapeCast_self]
  exact matmul_zero _ _

/-- Layer 1's product block (its rows come through an identity cast). -/
theorem product3 (x0 : Vec Ideal S5000x128 .f32) (x1 : Vec Ideal S128x128 .f32) :
    k3_pay1 (F := Ideal) x0 x1 = LibRowwiseStages.matProd (A := 5000) (K := 128) (B := 128) x0 x1 := by
  unfold k3_pay1
  simp only [shapeCast_self]
  exact matmul_zero _ _

/-- Layer 2's product block. -/
theorem product6 (x0 : Vec Ideal S5000x128 .f32) (x1 : Vec Ideal S128x128 .f32) :
    k6_pay1 (F := Ideal) x0 x1 = LibRowwiseStages.matProd (A := 5000) (K := 128) (B := 128) x0 x1 := by
  unfold k6_pay1
  simp only [shapeCast_self]
  exact matmul_zero _ _

/-- A block of rows times the broadcast of its column of factors. -/
theorem scaled (x0 : FVec Ideal S10000x128 .f32) (x1 : FVec Ideal S10000x1 .f32) :
    mulf x0 (broadcastTo S10000x128 x1 broadcasts_S10000x1_S10000x128) = LibRowwiseStages.rowScale (A := 10000) (B := 128) x0 x1 := by
  funext j
  obtain ⟨p, q, rfl⟩ : ∃ (p : Fin 10000) (q : Fin 128), j = ix2 p q := ⟨j 0, j 1, eq_ix2 j⟩
  rw [mulf_apply, LibColumnOps.broadcastTo_col_apply (a := 10000) (b := 128)]
  rfl

theorem scale1 (x0 : Vec Ideal S10000x128 .f32) (x1 : Vec Ideal S10000x1 .f32) :
    k1_pay1 (F := Ideal) x0 x1 = LibRowwiseStages.rowScale (A := 10000) (B := 128) x0 x1 := by
  unfold k1_pay1
  simp only [shapeCast_self]
  exact scaled _ _
theorem scale4 (x0 : Vec Ideal S10000x128 .f32) (x1 : Vec Ideal S10000x1 .f32) :
    k4_pay1 (F := Ideal) x0 x1 = LibRowwiseStages.rowScale (A := 10000) (B := 128) x0 x1 := by
  unfold k4_pay1
  simp only [shapeCast_self]
  exact scaled _ _
theorem scale7 (x0 : Vec Ideal S10000x128 .f32) (x1 : Vec Ideal S10000x1 .f32) :
    k7_pay1 (F := Ideal) x0 x1 = LibRowwiseStages.rowScale (A := 10000) (B := 128) x0 x1 := by
  unfold k7_pay1
  simp only [shapeCast_self]
  exact scaled _ _

/-- A block of rows plus the broadcast of the bias row. -/
theorem biased (x0 : FVec Ideal S5000x128 .f32) (x1 : FVec Ideal S1x128 .f32) :
    addf x0 (broadcastTo S5000x128 x1 broadcasts_S1x128_S5000x128) = LibRowwiseStages.addRow (A := 5000) (B := 128) x0 x1 := by
  funext j
  obtain ⟨p, q, rfl⟩ : ∃ (p : Fin 5000) (q : Fin 128), j = ix2 p q := ⟨j 0, j 1, eq_ix2 j⟩
  rw [addf_apply, LibRowOps.broadcastTo_row_apply (a := 5000) (b := 128)]
  rfl

/-- … and the same clipped at zero. -/
theorem biasedClip (x0 : FVec Ideal S5000x128 .f32) (x1 : FVec Ideal S1x128 .f32) :
    maximumf (addf x0 (broadcastTo S5000x128 x1 broadcasts_S1x128_S5000x128)) (broadcast S5000x128 (Scalar.ofBits (F := Ideal) .f32 0x00000000#32))
      = LibRowwiseStages.addRowClip (A := 5000) (B := 128) x0 x1 := by
  funext j
  obtain ⟨p, q, rfl⟩ : ∃ (p : Fin 5000) (q : Fin 128), j = ix2 p q := ⟨j 0, j 1, eq_ix2 j⟩
  rw [maximumf_apply, addf_apply, LibRowOps.broadcastTo_row_apply (a := 5000) (b := 128), broadcast_apply]
  rfl

theorem bias2 (x0 : Vec Ideal S5000x128 .f32) (x1 : Vec Ideal S1x128 .f32) :
    k2_pay1 (F := Ideal) x0 x1 = LibRowwiseStages.addRowClip (A := 5000) (B := 128) x0 x1 := by
  unfold k2_pay1
  simp only [shapeCast_self]
  exact biasedClip _ _
theorem bias5 (x0 : Vec Ideal S5000x128 .f32) (x1 : Vec Ideal S1x128 .f32) :
    k5_pay1 (F := Ideal) x0 x1 = LibRowwiseStages.addRowClip (A := 5000) (B := 128) x0 x1 := by
  unfold k5_pay1
  simp only [shapeCast_self]
  exact biasedClip _ _
theorem bias8 (x0 : Vec Ideal S5000x128 .f32) (x1 : Vec Ideal S1x128 .f32) :
    k8_pay1 (F := Ideal) x0 x1 = LibRowwiseStages.addRow (A := 5000) (B := 128) x0 x1 := by
  unfold k8_pay1
  simp only [shapeCast_self]
  exact biased _ _

end Cert.KernelIdeal.BlockValue

end
-- ==== Proof.Region0.lean ====
/-
  Region 0 of the kernel's program, read as a whole-array function: whatever the buffers hold when the region is entered,
  its output array ends holding the product of the region's first array with its second (the weight matrix).

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every block of rows is some point's. -/
theorem index_onto : ∀ q : Fin 20, ∃ t : Fin cfg0.N, win0_2.index t = ![q.val, 0] :=
  (by decide +kernel : ∀ q : Fin 20, ∃ t : Fin grid0.N, win0_2.index t = ![q.val, 0])

/-- What point t writes back is block t of the whole-array function of the arrays as the region finds them. -/
theorem flushed_eq (c : Dev nD) (t : Fin cfg0.N) :
    (dat0 V c).flushed 2 t = ((cfg0.win 2).blk t).view.read (Elt Ideal)
      (LibRowwiseStages.matProd (A := 100000) (K := 128) (B := 128) (V c main_arg0) (V c main_v32) : S100000x128.Idx → EReal) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [BlockValue.product0]
  obtain ⟨e0, e1, e2, e3, e4⟩ := index_maps t
  funext j
  show _ = LibRowwiseStages.matProd (A := 100000) (K := 128) (B := 128) (V c main_arg0) (V c main_v32) (((cfg0.win 2).blk t).view.emb j)
  refine LibRowwiseStages.matProd_read (a := 5000) (A := 100000) (K := 128) (B := 128) _ _ _ _ _ _ (fun k => ?_) (fun k => ?_)
  · show (V c main_arg0 : S100000x128.Idx → EReal) (((cfg0.win 0).blk t).view.emb (ix2 (n0 := 5000) (n1 := 128) (j 0) k))
      = (V c main_arg0 : S100000x128.Idx → EReal) (ix2 (n0 := 100000) (n1 := 128) ((((cfg0.win 2).blk t).view.emb j) 0) k)
    refine congrArg (V c main_arg0 : S100000x128.Idx → EReal) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show (V c main_v32 : S128x128.Idx → EReal) (((cfg0.win 1).blk t).view.emb (ix2 (n0 := 128) (n1 := 128) k (j 1)))
      = (V c main_v32 : S128x128.Idx → EReal) (ix2 (n0 := 128) (n1 := 128) k ((((cfg0.win 2).blk t).view.emb j) 1))
    refine congrArg (V c main_v32 : S128x128.Idx → EReal) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The blocks tile the array: row r is in the block of point r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region: the product of the region's first array with its second (the weight matrix). -/
theorem final (c : Dev nD) :
    (dat0 V c).arrAt 2 cfg0.N = (LibRowwiseStages.matProd (A := 100000) (K := 128) (B := 128) (V c main_arg0) (V c main_v32) : S100000x128.Idx → EReal) :=
  (dat0 V c).arrAt_eq_of_cover 2 _ (fun t _ => flushed_eq V c t) covered

end Cert.KernelIdeal.Region0

end
-- ==== Proof.Region1.lean ====
/-
  Region 1 of the kernel's program, read as a whole-array function: whatever the buffers hold when the region is entered,
  its output array ends holding the rows of the region's first array scaled by its second (the column of edge factors).

  Grid point t loads rows 10000·t … 10000·t + 9999 of the first array and of the column, and writes back the same rows of the output; the
  64 blocks tile the 640000 rows, and a row of the result depends only on the same row of the first array and of the column, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows, and so does the column. -/
theorem index_maps : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (1 : Fin 2) = 0 :=
  (by decide +kernel : ∀ t : Fin grid1.N, _)

/-- Every block of rows is some point's. -/
theorem index_onto : ∀ q : Fin 64, ∃ t : Fin cfg1.N, win1_2.index t = ![q.val, 0] :=
  (by decide +kernel : ∀ q : Fin 64, ∃ t : Fin grid1.N, win1_2.index t = ![q.val, 0])

/-- What point t writes back is block t of the whole-array function of the arrays as the region finds them. -/
theorem flushed_eq (c : Dev nD) (t : Fin cfg1.N) :
    (dat1 V c).flushed 2 t = ((cfg1.win 2).blk t).view.read (Elt Ideal)
      (LibRowwiseStages.rowScale (A := 640000) (B := 128) (V c main_v40) (V c main_v30) : S640000x128.Idx → EReal) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S10000x1) zero_offsets]
  rw [BlockValue.scale1]
  obtain ⟨e0, e1, e2, e3, e4⟩ := index_maps t
  funext j
  show _ = LibRowwiseStages.rowScale (A := 640000) (B := 128) (V c main_v40) (V c main_v30) (((cfg1.win 2).blk t).view.emb j)
  refine LibRowwiseStages.rowScale_read (a := 10000) (A := 640000) (B := 128) _ _ _ _ _ _ ?_ ?_
  · show (V c main_v40 : S640000x128.Idx → EReal) (((cfg1.win 0).blk t).view.emb j) = (V c main_v40 : S640000x128.Idx → EReal) (((cfg1.win 2).blk t).view.emb j)
    refine congrArg (V c main_v40 : S640000x128.Idx → EReal) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  · show (V c main_v30 : S640000x1.Idx → EReal) (((cfg1.win 1).blk t).view.emb (ix2 (n0 := 10000) (n1 := 1) (j 0) (0 : Fin 1)))
      = (V c main_v30 : S640000x1.Idx → EReal) (ix2 (n0 := 640000) (n1 := 1) ((((cfg1.win 2).blk t).view.emb j) 0) (0 : Fin 1))
    refine congrArg (V c main_v30 : S640000x1.Idx → EReal) (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the output array is in point t's block iff each coordinate is in the block's range on its axis. -/
theorem mem_block (t : Fin cfg1.N) (i : S640000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- The blocks tile the array: row r is in the block of point r / 10000. -/
theorem covered (i : S640000x128.Idx) :
    ∃ t : Fin cfg1.N, (cfg1.win 2).flush t = true ∧ i ∈ ((cfg1.win 2).blk t).view.set := by
  have hi0 : (i 0).val < 640000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: the rows of the region's first array scaled by its second (the column of edge factors). -/
theorem final (c : Dev nD) :
    (dat1 V c).arrAt 2 cfg1.N = (LibRowwiseStages.rowScale (A := 640000) (B := 128) (V c main_v40) (V c main_v30) : S640000x128.Idx → EReal) :=
  (dat1 V c).arrAt_eq_of_cover 2 _ (fun t _ => flushed_eq V c t) covered

end Cert.KernelIdeal.Region1

end
-- ==== Proof.Region2.lean ====
/-
  Region 2 of the kernel's program, read as a whole-array function: whatever the buffers hold when the region is entered,
  its output array ends holding the region's second array (a bias row) added to every row of its first and clipped at zero.

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every block of rows is some point's. -/
theorem index_onto : ∀ q : Fin 20, ∃ t : Fin cfg2.N, win2_2.index t = ![q.val, 0] :=
  (by decide +kernel : ∀ q : Fin 20, ∃ t : Fin grid2.N, win2_2.index t = ![q.val, 0])

/-- What point t writes back is block t of the whole-array function of the arrays as the region finds them. -/
theorem flushed_eq (c : Dev nD) (t : Fin cfg2.N) :
    (dat2 V c).flushed 2 t = ((cfg2.win 2).blk t).view.read (Elt Ideal)
      (LibRowwiseStages.addRowClip (A := 100000) (B := 128) (V c main_v44) (V c main_v47) : S100000x128.Idx → EReal) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  rw [BlockValue.bias2]
  obtain ⟨e0, e1, e2, e3, e4⟩ := index_maps t
  funext j
  show _ = LibRowwiseStages.addRowClip (A := 100000) (B := 128) (V c main_v44) (V c main_v47) (((cfg2.win 2).blk t).view.emb j)
  refine LibRowwiseStages.addRowClip_read (a := 5000) (A := 100000) (B := 128) _ _ _ _ _ _ ?_ ?_
  · show (V c main_v44 : S100000x128.Idx → EReal) (((cfg2.win 0).blk t).view.emb j) = (V c main_v44 : S100000x128.Idx → EReal) (((cfg2.win 2).blk t).view.emb j)
    refine congrArg (V c main_v44 : S100000x128.Idx → EReal) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  · show (V c main_v47 : S1x128.Idx → EReal) (((cfg2.win 1).blk t).view.emb (ix2 (n0 := 1) (n1 := 128) (0 : Fin 1) (j 1)))
      = (V c main_v47 : S1x128.Idx → EReal) (ix2 (n0 := 1) (n1 := 128) (0 : Fin 1) ((((cfg2.win 2).blk t).view.emb j) 1))
    refine congrArg (V c main_v47 : S1x128.Idx → EReal) (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The blocks tile the array: row r is in the block of point r / 5000. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the region's second array (a bias row) added to every row of its first and clipped at zero. -/
theorem final (c : Dev nD) :
    (dat2 V c).arrAt 2 cfg2.N = (LibRowwiseStages.addRowClip (A := 100000) (B := 128) (V c main_v44) (V c main_v47) : S100000x128.Idx → EReal) :=
  (dat2 V c).arrAt_eq_of_cover 2 _ (fun t _ => flushed_eq V c t) covered

end Cert.KernelIdeal.Region2

end
-- ==== Proof.Fold0.lean ====
/-
  The kernel program's buffers at its segment boundaries, layer 0.

  @main's buffer contents at each boundary between a stretch of host operations and a kernel region are a fold from the
  launch memory: a stretch applies its operations, a region replaces its output array by the whole-array function of its
  input arrays (Region0 … Region8) and leaves every other buffer alone. Read at the buffers the later segments use, that
  fold is the reference's named stages of the argument arrays: before the first region the edge rows and columns, the
  degree, its guarded reciprocal square root, the edge factors (as a column) and the first weight matrix; after it the
  product; then the rows gathered at the sources, the messages, their sums into the targets, and after the third region
  the first layer's output. The edge vectors, the column of factors and the weight and bias arguments are carried along
  unchanged.
-/
import proofs.«177611_j47931835023574_1_alg».proof.Proof.Gen.KernelIdeal.Frame
import proofs.«177611_j47931835023574_1_alg».proof.Proof.ReferenceRun
import proofs.«177611_j47931835023574_1_alg».proof.Proof.StageBridge
import proofs.«177611_j47931835023574_1_alg».proof.Proof.LibRowwiseStages
import proofs.«177611_j47931835023574_1_alg».proof.Proof.Region0
import proofs.«177611_j47931835023574_1_alg».proof.Proof.Region1
import proofs.«177611_j47931835023574_1_alg».proof.Proof.Region2
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

section AnyFloats

variable {F : FTy → Type} [FloatOps F]
variable (m : (ℓ : Loc nD τ sig) → Buf (Elt F) ℓ) (ρ : Dev nD → PrngReg) (c : Dev nD)

set_option maxRecDepth 65536 in
set_option maxHeartbeats 4000000 in
/-- Whatever the float operations are: after the first four stretches of host operations the buffer of the guarded
    reciprocal square roots holds the reference's stage of the edge table. -/
theorem dinv_any : W4 m ρ c (Proc.devRef .tc main_v14) = Cert.ReferenceIdeal.Hand.invSqrtDeg (F := F) (m ((c : Thread nD τ).loc main_arg1)) := by
  show StableHlo.after hostOps0_3 (StableHlo.after hostOps0_2 (StableHlo.after hostOps0_1 (StableHlo.after hostOps0 (W0 m ρ c)))) (Proc.devRef .tc main_v14) = _
  after_results_simp <;> rfl

end AnyFloats

variable (m : (ℓ : Loc nD τ sig) → Buf (Elt Ideal) ℓ) (ρ : Dev nD → PrngReg) (c : Dev nD)

/-! ### A named value along the way -/

/-- The messages of a layer: the rows of `h` at the sources, each scaled by its edge's factor. -/
def messages (x1 : (⟨Cert.ReferenceIdeal.S2x640000, .i32⟩ : BufTy).Contents (Elt Ideal)) (h : (⟨Cert.ReferenceIdeal.S100000x128, .f32⟩ : BufTy).Contents (Elt Ideal)) : (⟨Cert.ReferenceIdeal.S640000x128, .f32⟩ : BufTy).Contents (Elt Ideal) :=
  mulf (F := Ideal) (s := Cert.ReferenceIdeal.S640000x128) (φ := .f32)
    (Cert.ReferenceIdeal.Hand.gatherRows (F := Ideal) h (Cert.ReferenceIdeal.Hand.wrapIndex (F := Ideal) (Cert.ReferenceIdeal.Hand.row (F := Ideal) x1))) (Cert.ReferenceIdeal.Hand.normBroadcast (F := Ideal) x1)

/-! ### The graph's normalisation: the guarded reciprocal square root of the degree, then the factor of every edge -/

theorem L4_dinv : W4 m ρ c (Proc.devRef .tc main_v14) = (Cert.ReferenceIdeal.Hand.invSqrtDeg (F := Ideal) (m ((c : Thread nD τ).loc main_arg1))) :=
  dinv_any (F := Ideal) m ρ c
theorem L4_row : W4 m ρ c (Proc.devRef .tc main_v1) = (Cert.ReferenceIdeal.Hand.row (F := Ideal) (m ((c : Thread nD τ).loc main_arg1))) := by
  show StableHlo.after hostOps0_3 (StableHlo.after hostOps0_2 (StableHlo.after hostOps0_1 (StableHlo.after hostOps0 (W0 m ρ c)))) (Proc.devRef .tc main_v1) = _
  after_results_simp <;> rfl
theorem L4_col : W4 m ρ c (Proc.devRef .tc main_v3) = (Cert.ReferenceIdeal.Hand.col (F := Ideal) (m ((c : Thread nD τ).loc main_arg1))) := by
  show StableHlo.after hostOps0_3 (StableHlo.after hostOps0_2 (StableHlo.after hostOps0_1 (StableHlo.after hostOps0 (W0 m ρ c)))) (Proc.devRef .tc main_v3) = _
  after_results_simp <;> rfl
set_option maxHeartbeats 4000000 in
theorem L5_nc : W5 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  have h0 := L4_dinv m ρ c
  have h1 := L4_row m ρ c
  have h2 := L4_col m ρ c
  show StableHlo.after hostOps0_4 (W4 m ρ c) (Proc.devRef .tc main_v30) = _
  generalize W4 m ρ c = U at h0 h1 h2 ⊢
  after_results_simp
  rw [h0, h1, h2]
  rfl
theorem L5_row : W5 m ρ c (Proc.devRef .tc main_v1) = (Cert.ReferenceIdeal.Hand.row (F := Ideal) (m ((c : Thread nD τ).loc main_arg1))) := by
  have h0 := L4_row m ρ c
  show StableHlo.after hostOps0_4 (W4 m ρ c) (Proc.devRef .tc main_v1) = _
  generalize W4 m ρ c = U at h0 ⊢
  after_results
  exact h0
theorem L5_col : W5 m ρ c (Proc.devRef .tc main_v3) = (Cert.ReferenceIdeal.Hand.col (F := Ideal) (m ((c : Thread nD τ).loc main_arg1))) := by
  have h0 := L4_col m ρ c
  show StableHlo.after hostOps0_4 (W4 m ρ c) (Proc.devRef .tc main_v3) = _
  generalize W4 m ρ c = U at h0 ⊢
  after_results
  exact h0
/-! ### The first weight matrix, and the arguments as launched -/
theorem L5_w : W5 m ρ c (Proc.devRef .tc main_v32) = (Cert.ReferenceIdeal.Hand.weights0 (F := Ideal) (m ((c : Thread nD τ).loc main_arg3))) := by
  show StableHlo.after hostOps0_4 (StableHlo.after hostOps0_3 (StableHlo.after hostOps0_2 (StableHlo.after hostOps0_1 (StableHlo.after hostOps0 (W0 m ρ c))))) (Proc.devRef .tc main_v32) = _
  after_results_simp <;> rfl
theorem L5_x : W5 m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl
theorem L5_a3 : W5 m ρ c (Proc.devRef .tc main_arg3) = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl
theorem L5_a4 : W5 m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl
/-! ### Layer 0: the product -/
theorem L6_h : W6 m ρ c (Proc.devRef .tc main_v33) = (Cert.ReferenceIdeal.Hand.product (F := Ideal) (m ((c : Thread nD τ).loc main_arg0)) (Cert.ReferenceIdeal.Hand.weights0 (F := Ideal) (m ((c : Thread nD τ).loc main_arg3)))) := by
  refine (W6_arr m ρ c 2).trans ((Region0.final (V5 m ρ) c).trans ?_)
  show LibRowwiseStages.matProd (A := 100000) (K := 128) (B := 128) (W5 m ρ c (Proc.devRef .tc main_arg0)) (W5 m ρ c (Proc.devRef .tc main_v32)) = _
  rw [L5_x m ρ c, L5_w m ρ c]
  exact (StageBridge.product_eq _ _).symm
theorem L6_row : W6 m ρ c (Proc.devRef .tc main_v1) = (Cert.ReferenceIdeal.Hand.row (F := Ideal) (m ((c : Thread nD τ).loc main_arg1))) :=
  (W6_of_ne m ρ c main_v1 (by decide)).trans (L5_row m ρ c)
theorem L6_col : W6 m ρ c (Proc.devRef .tc main_v3) = (Cert.ReferenceIdeal.Hand.col (F := Ideal) (m ((c : Thread nD τ).loc main_arg1))) :=
  (W6_of_ne m ρ c main_v3 (by decide)).trans (L5_col m ρ c)
theorem L6_nc : W6 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W6_of_ne m ρ c main_v30 (by decide)).trans (L5_nc m ρ c)
theorem L6_a3 : W6 m ρ c (Proc.devRef .tc main_arg3) = (m ((c : Thread nD τ).loc main_arg3)) :=
  (W6_of_ne m ρ c main_arg3 (by decide)).trans (L5_a3 m ρ c)
theorem L6_a4 : W6 m ρ c (Proc.devRef .tc main_arg4) = (m ((c : Thread nD τ).loc main_arg4)) :=
  (W6_of_ne m ρ c main_arg4 (by decide)).trans (L5_a4 m ρ c)
/-! ### Layer 0: the rows gathered at the sources -/
theorem L7_g : W7 m ρ c (Proc.devRef .tc main_v40) = (Cert.ReferenceIdeal.Hand.gatherRows (F := Ideal) (Cert.ReferenceIdeal.Hand.product (F := Ideal) (m ((c : Thread nD τ).loc main_arg0)) (Cert.ReferenceIdeal.Hand.weights0 (F := Ideal) (m ((c : Thread nD τ).loc main_arg3)))) (Cert.ReferenceIdeal.Hand.wrapIndex (F := Ideal) (Cert.ReferenceIdeal.Hand.row (F := Ideal) (m ((c : Thread nD τ).loc main_arg1))))) := by
  show StableHlo.after hostOps1 (W6 m ρ c) (Proc.devRef .tc main_v40) = _
  after_results
  rw [L6_h m ρ c, L6_row m ρ c]
  rfl
theorem L7_row : W7 m ρ c (Proc.devRef .tc main_v1) = (Cert.ReferenceIdeal.Hand.row (F := Ideal) (m ((c : Thread nD τ).loc main_arg1))) := by
  show StableHlo.after hostOps1 (W6 m ρ c) (Proc.devRef .tc main_v1) = _
  after_results
  exact L6_row m ρ c
theorem L7_col : W7 m ρ c (Proc.devRef .tc main_v3) = (Cert.ReferenceIdeal.Hand.col (F := Ideal) (m ((c : Thread nD τ).loc main_arg1))) := by
  show StableHlo.after hostOps1 (W6 m ρ c) (Proc.devRef .tc main_v3) = _
  after_results
  exact L6_col m ρ c
theorem L7_nc : W7 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps1 (W6 m ρ c) (Proc.devRef .tc main_v30) = _
  after_results
  exact L6_nc m ρ c
theorem L7_a3 : W7 m ρ c (Proc.devRef .tc main_arg3) = (m ((c : Thread nD τ).loc main_arg3)) := by
  show StableHlo.after hostOps1 (W6 m ρ c) (Proc.devRef .tc main_arg3) = _
  after_results
  exact L6_a3 m ρ c
theorem L7_a4 : W7 m ρ c (Proc.devRef .tc main_arg4) = (m ((c : Thread nD τ).loc main_arg4)) := by
  show StableHlo.after hostOps1 (W6 m ρ c) (Proc.devRef .tc main_arg4) = _
  after_results
  exact L6_a4 m ρ c
/-! ### Layer 0: the messages, scaled by the edge factors -/
theorem L8_msg : W8 m ρ c (Proc.devRef .tc main_v41) = (messages (m ((c : Thread nD τ).loc main_arg1)) (Cert.ReferenceIdeal.Hand.product (F := Ideal) (m ((c : Thread nD τ).loc main_arg0)) (Cert.ReferenceIdeal.Hand.weights0 (F := Ideal) (m ((c : Thread nD τ).loc main_arg3))))) := by
  refine (W8_arr m ρ c 2).trans ((Region1.final (V7 m ρ) c).trans ?_)
  show LibRowwiseStages.rowScale (A := 640000) (B := 128) (W7 m ρ c (Proc.devRef .tc main_v40)) (W7 m ρ c (Proc.devRef .tc main_v30)) = _
  rw [L7_g m ρ c, L7_nc m ρ c, StageBridge.scale_eq]
  rfl
theorem L8_row : W8 m ρ c (Proc.devRef .tc main_v1) = (Cert.ReferenceIdeal.Hand.row (F := Ideal) (m ((c : Thread nD τ).loc main_arg1))) :=
  (W8_of_ne m ρ c main_v1 (by decide)).trans (L7_row m ρ c)
theorem L8_col : W8 m ρ c (Proc.devRef .tc main_v3) = (Cert.ReferenceIdeal.Hand.col (F := Ideal) (m ((c : Thread nD τ).loc main_arg1))) :=
  (W8_of_ne m ρ c main_v3 (by decide)).trans (L7_col m ρ c)
theorem L8_nc : W8 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W8_arr m ρ c 1).trans (((dat1 (V7 m ρ) c).arrAt_in 1 rfl _).trans ((A_eq1 (V7 m ρ) c 1).trans (L7_nc m ρ c)))
theorem L8_a3 : W8 m ρ c (Proc.devRef .tc main_arg3) = (m ((c : Thread nD τ).loc main_arg3)) :=
  (W8_of_ne m ρ c main_arg3 (by decide)).trans (L7_a3 m ρ c)
theorem L8_a4 : W8 m ρ c (Proc.devRef .tc main_arg4) = (m ((c : Thread nD τ).loc main_arg4)) :=
  (W8_of_ne m ρ c main_arg4 (by decide)).trans (L7_a4 m ρ c)
/-! ### Layer 0: the messages summed into the targets, and the bias as a row -/
theorem L9_agg : W9 m ρ c (Proc.devRef .tc main_v44) = (Cert.ReferenceIdeal.Hand.layerSum (F := Ideal) (m ((c : Thread nD τ).loc main_arg1)) (Cert.ReferenceIdeal.Hand.product (F := Ideal) (m ((c : Thread nD τ).loc main_arg0)) (Cert.ReferenceIdeal.Hand.weights0 (F := Ideal) (m ((c : Thread nD τ).loc main_arg3))))) := by
  show StableHlo.after hostOps2 (W8 m ρ c) (Proc.devRef .tc main_v44) = _
  after_results
  rw [L8_msg m ρ c, L8_col m ρ c]
  rfl
theorem L9_b : W9 m ρ c (Proc.devRef .tc main_v47) = (shapeCast Cert.KernelIdeal.S1x128 (Cert.ReferenceIdeal.Hand.bias0 (F := Ideal) (m ((c : Thread nD τ).loc main_arg4))) Cert.KernelIdeal.Gen.shapeCasts_S128_S1x128) := by
  show StableHlo.after hostOps2 (W8 m ρ c) (Proc.devRef .tc main_v47) = _
  after_results
  rw [L8_a4 m ρ c]
  rfl
theorem L9_row : W9 m ρ c (Proc.devRef .tc main_v1) = (Cert.ReferenceIdeal.Hand.row (F := Ideal) (m ((c : Thread nD τ).loc main_arg1))) := by
  show StableHlo.after hostOps2 (W8 m ρ c) (Proc.devRef .tc main_v1) = _
  after_results
  exact L8_row m ρ c
theorem L9_col : W9 m ρ c (Proc.devRef .tc main_v3) = (Cert.ReferenceIdeal.Hand.col (F := Ideal) (m ((c : Thread nD τ).loc main_arg1))) := by
  show StableHlo.after hostOps2 (W8 m ρ c) (Proc.devRef .tc main_v3) = _
  after_results
  exact L8_col m ρ c
theorem L9_nc : W9 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps2 (W8 m ρ c) (Proc.devRef .tc main_v30) = _
  after_results
  exact L8_nc m ρ c
theorem L9_a3 : W9 m ρ c (Proc.devRef .tc main_arg3) = (m ((c : Thread nD τ).loc main_arg3)) := by
  show StableHlo.after hostOps2 (W8 m ρ c) (Proc.devRef .tc main_arg3) = _
  after_results
  exact L8_a3 m ρ c
theorem L9_a4 : W9 m ρ c (Proc.devRef .tc main_arg4) = (m ((c : Thread nD τ).loc main_arg4)) := by
  show StableHlo.after hostOps2 (W8 m ρ c) (Proc.devRef .tc main_arg4) = _
  after_results
  exact L8_a4 m ρ c
/-! ### Layer 0: the bias added, clipped at zero -/
theorem L10_out : W10 m ρ c (Proc.devRef .tc main_v48) = (Cert.ReferenceIdeal.Hand.layer0 (F := Ideal) (m ((c : Thread nD τ).loc main_arg0)) (m ((c : Thread nD τ).loc main_arg1)) (m ((c : Thread nD τ).loc main_arg3)) (m ((c : Thread nD τ).loc main_arg4))) := by
  refine (W10_arr m ρ c 2).trans ((Region2.final (V9 m ρ) c).trans ?_)
  show LibRowwiseStages.addRowClip (A := 100000) (B := 128) (W9 m ρ c (Proc.devRef .tc main_v44)) (W9 m ρ c (Proc.devRef .tc main_v47)) = _
  rw [L9_agg m ρ c, L9_b m ρ c, StageBridge.biasClip_eq]
  rfl
theorem L10_row : W10 m ρ c (Proc.devRef .tc main_v1) = (Cert.ReferenceIdeal.Hand.row (F := Ideal) (m ((c : Thread nD τ).loc main_arg1))) :=
  (W10_of_ne m ρ c main_v1 (by decide)).trans (L9_row m ρ c)
theorem L10_col : W10 m ρ c (Proc.devRef .tc main_v3) = (Cert.ReferenceIdeal.Hand.col (F := Ideal) (m ((c : Thread nD τ).loc main_arg1))) :=
  (W10_of_ne m ρ c main_v3 (by decide)).trans (L9_col m ρ c)
theorem L10_nc : W10 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W10_of_ne m ρ c main_v30 (by decide)).trans (L9_nc m ρ c)
theorem L10_a3 : W10 m ρ c (Proc.devRef .tc main_arg3) = (m ((c : Thread nD τ).loc main_arg3)) :=
  (W10_of_ne m ρ c main_arg3 (by decide)).trans (L9_a3 m ρ c)
theorem L10_a4 : W10 m ρ c (Proc.devRef .tc main_arg4) = (m ((c : Thread nD τ).loc main_arg4)) :=
  (W10_of_ne m ρ c main_arg4 (by decide)).trans (L9_a4 m ρ c)

end Cert.KernelIdeal.Fold

end
-- ==== Proof.Region3.lean ====
/-
  Region 3 of the kernel's program, read as a whole-array function: whatever the buffers hold when the region is entered,
  its output array ends holding the product of the region's first array with its second (the weight matrix).

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- Every block of rows is some point's. -/
theorem index_onto : ∀ q : Fin 20, ∃ t : Fin cfg3.N, win3_2.index t = ![q.val, 0] :=
  (by decide +kernel : ∀ q : Fin 20, ∃ t : Fin grid3.N, win3_2.index t = ![q.val, 0])

/-- What point t writes back is block t of the whole-array function of the arrays as the region finds them. -/
theorem flushed_eq (c : Dev nD) (t : Fin cfg3.N) :
    (dat3 V c).flushed 2 t = ((cfg3.win 2).blk t).view.read (Elt Ideal)
      (LibRowwiseStages.matProd (A := 100000) (K := 128) (B := 128) (V c main_v48) (V c main_v50) : S100000x128.Idx → EReal) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S128x128) zero_offsets]
  rw [BlockValue.product3]
  obtain ⟨e0, e1, e2, e3, e4⟩ := index_maps t
  funext j
  show _ = LibRowwiseStages.matProd (A := 100000) (K := 128) (B := 128) (V c main_v48) (V c main_v50) (((cfg3.win 2).blk t).view.emb j)
  refine LibRowwiseStages.matProd_read (a := 5000) (A := 100000) (K := 128) (B := 128) _ _ _ _ _ _ (fun k => ?_) (fun k => ?_)
  · show (V c main_v48 : S100000x128.Idx → EReal) (((cfg3.win 0).blk t).view.emb (ix2 (n0 := 5000) (n1 := 128) (j 0) k))
      = (V c main_v48 : S100000x128.Idx → EReal) (ix2 (n0 := 100000) (n1 := 128) ((((cfg3.win 2).blk t).view.emb j) 0) k)
    refine congrArg (V c main_v48 : S100000x128.Idx → EReal) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  · show (V c main_v50 : S128x128.Idx → EReal) (((cfg3.win 1).blk t).view.emb (ix2 (n0 := 128) (n1 := 128) k (j 1)))
      = (V c main_v50 : S128x128.Idx → EReal) (ix2 (n0 := 128) (n1 := 128) k ((((cfg3.win 2).blk t).view.emb j) 1))
    refine congrArg (V c main_v50 : S128x128.Idx → EReal) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

/-- An index of the output array is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v51).slice (win3_2.rect t)).set ↔ _
  rw [View.set_slice_whole, Rect.mem_set_unit]
  exact Iff.rfl

/-- The blocks tile the array: row r is in the block of point r / 5000. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := index_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the product of the region's first array with its second (the weight matrix). -/
theorem final (c : Dev nD) :
    (dat3 V c).arrAt 2 cfg3.N = (LibRowwiseStages.matProd (A := 100000) (K := 128) (B := 128) (V c main_v48) (V c main_v50) : S100000x128.Idx → EReal) :=
  (dat3 V c).arrAt_eq_of_cover 2 _ (fun t _ => flushed_eq V c t) covered

end Cert.KernelIdeal.Region3

end
-- ==== Proof.Region4.lean ====
/-
  Region 4 of the kernel's program, read as a whole-array function: whatever the buffers hold when the region is entered,
  its output array ends holding the rows of the region's first array scaled by its second (the column of edge factors).

  Grid point t loads rows 10000·t … 10000·t + 9999 of the first array and of the column, and writes back the same rows of the output; the
  64 blocks tile the 640000 rows, and a row of the result depends only on the same row of the first array and of the column, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows, and so does the column. -/
theorem index_maps : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0 :=
  (by decide +kernel : ∀ t : Fin grid4.N, _)

/-- Every block of rows is some point's. -/
theorem index_onto : ∀ q : Fin 64, ∃ t : Fin cfg4.N, win4_2.index t = ![q.val, 0] :=
  (by decide +kernel : ∀ q : Fin 64, ∃ t : Fin grid4.N, win4_2.index t = ![q.val, 0])

/-- What point t writes back is block t of the whole-array function of the arrays as the region finds them. -/
theorem flushed_eq (c : Dev nD) (t : Fin cfg4.N) :
    (dat4 V c).flushed 2 t = ((cfg4.win 2).blk t).view.read (Elt Ideal)
      (LibRowwiseStages.rowScale (A := 640000) (B := 128) (V c main_v58) (V c main_v30) : S640000x128.Idx → EReal) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S10000x1) zero_offsets]
  rw [BlockValue.scale4]
  obtain ⟨e0, e1, e2, e3, e4⟩ := index_maps t
  funext j
  show _ = LibRowwiseStages.rowScale (A := 640000) (B := 128) (V c main_v58) (V c main_v30) (((cfg4.win 2).blk t).view.emb j)
  refine LibRowwiseStages.rowScale_read (a := 10000) (A := 640000) (B := 128) _ _ _ _ _ _ ?_ ?_
  · show (V c main_v58 : S640000x128.Idx → EReal) (((cfg4.win 0).blk t).view.emb j) = (V c main_v58 : S640000x128.Idx → EReal) (((cfg4.win 2).blk t).view.emb j)
    refine congrArg (V c main_v58 : S640000x128.Idx → EReal) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  · show (V c main_v30 : S640000x1.Idx → EReal) (((cfg4.win 1).blk t).view.emb (ix2 (n0 := 10000) (n1 := 1) (j 0) (0 : Fin 1)))
      = (V c main_v30 : S640000x1.Idx → EReal) (ix2 (n0 := 640000) (n1 := 1) ((((cfg4.win 2).blk t).view.emb j) 0) (0 : Fin 1))
    refine congrArg (V c main_v30 : S640000x1.Idx → EReal) (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An index of the output array is in point t's block iff each coordinate is in the block's range on its axis. -/
theorem mem_block (t : Fin cfg4.N) (i : S640000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v59).slice (win4_2.rect t)).set ↔ _
  rw [View.set_slice_whole, Rect.mem_set_unit]
  exact Iff.rfl

/-- The blocks tile the array: row r is in the block of point r / 10000. -/
theorem covered (i : S640000x128.Idx) :
    ∃ t : Fin cfg4.N, (cfg4.win 2).flush t = true ∧ i ∈ ((cfg4.win 2).blk t).view.set := by
  have hi0 : (i 0).val < 640000 := (i 0).isLt
  have hi1 : (i 1).val < 128 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- The output array after the region: the rows of the region's first array scaled by its second (the column of edge factors). -/
theorem final (c : Dev nD) :
    (dat4 V c).arrAt 2 cfg4.N = (LibRowwiseStages.rowScale (A := 640000) (B := 128) (V c main_v58) (V c main_v30) : S640000x128.Idx → EReal) :=
  (dat4 V c).arrAt_eq_of_cover 2 _ (fun t _ => flushed_eq V c t) covered

end Cert.KernelIdeal.Region4

end
-- ==== Proof.Region5.lean ====
/-
  Region 5 of the kernel's program, read as a whole-array function: whatever the buffers hold when the region is entered,
  its output array ends holding the region's second array (a bias row) added to every row of its first and clipped at zero.

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0 :=
  (by decide +kernel : ∀ t : Fin grid5.N, _)

/-- Every block of rows is some point's. -/
theorem index_onto : ∀ q : Fin 20, ∃ t : Fin cfg5.N, win5_2.index t = ![q.val, 0] :=
  (by decide +kernel : ∀ q : Fin 20, ∃ t : Fin grid5.N, win5_2.index t = ![q.val, 0])

/-- What point t writes back is block t of the whole-array function of the arrays as the region finds them. -/
theorem flushed_eq (c : Dev nD) (t : Fin cfg5.N) :
    (dat5 V c).flushed 2 t = ((cfg5.win 2).blk t).view.read (Elt Ideal)
      (LibRowwiseStages.addRowClip (A := 100000) (B := 128) (V c main_v62) (V c main_v65) : S100000x128.Idx → EReal) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  rw [BlockValue.bias5]
  obtain ⟨e0, e1, e2, e3, e4⟩ := index_maps t
  funext j
  show _ = LibRowwiseStages.addRowClip (A := 100000) (B := 128) (V c main_v62) (V c main_v65) (((cfg5.win 2).blk t).view.emb j)
  refine LibRowwiseStages.addRowClip_read (a := 5000) (A := 100000) (B := 128) _ _ _ _ _ _ ?_ ?_
  · show (V c main_v62 : S100000x128.Idx → EReal) (((cfg5.win 0).blk t).view.emb j) = (V c main_v62 : S100000x128.Idx → EReal) (((cfg5.win 2).blk t).view.emb j)
    refine congrArg (V c main_v62 : S100000x128.Idx → EReal) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  · show (V c main_v65 : S1x128.Idx → EReal) (((cfg5.win 1).blk t).view.emb (ix2 (n0 := 1) (n1 := 128) (0 : Fin 1) (j 1)))
      = (V c main_v65 : S1x128.Idx → EReal) (ix2 (n0 := 1) (n1 := 128) (0 : Fin 1) ((((cfg5.win 2).blk t).view.emb j) 1))
    refine congrArg (V c main_v65 : S1x128.Idx → EReal) (funext fun a => Fin.ext ?_)
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega

/-- An index of the output array is in point t's block iff each coordinate is in the block's range on its axis. -/
theorem mem_block (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v66).slice (win5_2.rect t)).set ↔ _
  rw [View.set_slice_whole, Rect.mem_set_unit]
  exact Iff.rfl

/-- The blocks tile the array: row r is in the block of point r / 5000. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := index_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The output array after the region: the region's second array (a bias row) added to every row of its first and clipped at zero. -/
theorem final (c : Dev nD) :
    (dat5 V c).arrAt 2 cfg5.N = (LibRowwiseStages.addRowClip (A := 100000) (B := 128) (V c main_v62) (V c main_v65) : S100000x128.Idx → EReal) :=
  (dat5 V c).arrAt_eq_of_cover 2 _ (fun t _ => flushed_eq V c t) covered

end Cert.KernelIdeal.Region5

end
-- ==== Proof.Fold1.lean ====
/-
  The kernel program's buffers at its segment boundaries, layer 1: from the first layer's output through the second
  weight matrix, the product, the gathered rows, the messages and their sums, to the second layer's output.
-/
import proofs.«177611_j47931835023574_1_alg».proof.Proof.Fold0
import proofs.«177611_j47931835023574_1_alg».proof.Proof.Region3
import proofs.«177611_j47931835023574_1_alg».proof.Proof.Region4
import proofs.«177611_j47931835023574_1_alg».proof.Proof.Region5

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### Before layer 1's product: its weight matrix; the previous layer's output is carried -/
theorem L11_w : W11 m ρ c (Proc.devRef .tc main_v50) = (Cert.ReferenceIdeal.Hand.weights1 (F := Ideal) (m ((c : Thread nD τ).loc main_arg3))) := by
  show StableHlo.after hostOps3 (W10 m ρ c) (Proc.devRef .tc main_v50) = _
  after_results
  rw [L10_a3 m ρ c]
  rfl
theorem L11_x : W11 m ρ c (Proc.devRef .tc main_v48) = (Cert.ReferenceIdeal.Hand.layer0 (F := Ideal) (m ((c : Thread nD τ).loc main_arg0)) (m ((c : Thread nD τ).loc main_arg1)) (m ((c : Thread nD τ).loc main_arg3)) (m ((c : Thread nD τ).loc main_arg4))) := by
  show StableHlo.after hostOps3 (W10 m ρ c) (Proc.devRef .tc main_v48) = _
  after_results
  exact L10_out m ρ c
theorem L11_row : W11 m ρ c (Proc.devRef .tc main_v1) = (Cert.ReferenceIdeal.Hand.row (F := Ideal) (m ((c : Thread nD τ).loc main_arg1))) := by
  show StableHlo.after hostOps3 (W10 m ρ c) (Proc.devRef .tc main_v1) = _
  after_results
  exact L10_row m ρ c
theorem L11_col : W11 m ρ c (Proc.devRef .tc main_v3) = (Cert.ReferenceIdeal.Hand.col (F := Ideal) (m ((c : Thread nD τ).loc main_arg1))) := by
  show StableHlo.after hostOps3 (W10 m ρ c) (Proc.devRef .tc main_v3) = _
  after_results
  exact L10_col m ρ c
theorem L11_nc : W11 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps3 (W10 m ρ c) (Proc.devRef .tc main_v30) = _
  after_results
  exact L10_nc m ρ c
theorem L11_a3 : W11 m ρ c (Proc.devRef .tc main_arg3) = (m ((c : Thread nD τ).loc main_arg3)) := by
  show StableHlo.after hostOps3 (W10 m ρ c) (Proc.devRef .tc main_arg3) = _
  after_results
  exact L10_a3 m ρ c
theorem L11_a4 : W11 m ρ c (Proc.devRef .tc main_arg4) = (m ((c : Thread nD τ).loc main_arg4)) := by
  show StableHlo.after hostOps3 (W10 m ρ c) (Proc.devRef .tc main_arg4) = _
  after_results
  exact L10_a4 m ρ c
/-! ### Layer 1: the product -/
theorem L12_h : W12 m ρ c (Proc.devRef .tc main_v51) = (Cert.ReferenceIdeal.Hand.product (F := Ideal) (Cert.ReferenceIdeal.Hand.layer0 (F := Ideal) (m ((c : Thread nD τ).loc main_arg0)) (m ((c : Thread nD τ).loc main_arg1)) (m ((c : Thread nD τ).loc main_arg3)) (m ((c : Thread nD τ).loc main_arg4))) (Cert.ReferenceIdeal.Hand.weights1 (F := Ideal) (m ((c : Thread nD τ).loc main_arg3)))) := by
  refine (W12_arr m ρ c 2).trans ((Region3.final (V11 m ρ) c).trans ?_)
  show LibRowwiseStages.matProd (A := 100000) (K := 128) (B := 128) (W11 m ρ c (Proc.devRef .tc main_v48)) (W11 m ρ c (Proc.devRef .tc main_v50)) = _
  rw [L11_x m ρ c, L11_w m ρ c]
  exact (StageBridge.product_eq _ _).symm
theorem L12_row : W12 m ρ c (Proc.devRef .tc main_v1) = (Cert.ReferenceIdeal.Hand.row (F := Ideal) (m ((c : Thread nD τ).loc main_arg1))) :=
  (W12_of_ne m ρ c main_v1 (by decide)).trans (L11_row m ρ c)
theorem L12_col : W12 m ρ c (Proc.devRef .tc main_v3) = (Cert.ReferenceIdeal.Hand.col (F := Ideal) (m ((c : Thread nD τ).loc main_arg1))) :=
  (W12_of_ne m ρ c main_v3 (by decide)).trans (L11_col m ρ c)
theorem L12_nc : W12 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W12_of_ne m ρ c main_v30 (by decide)).trans (L11_nc m ρ c)
theorem L12_a3 : W12 m ρ c (Proc.devRef .tc main_arg3) = (m ((c : Thread nD τ).loc main_arg3)) :=
  (W12_of_ne m ρ c main_arg3 (by decide)).trans (L11_a3 m ρ c)
theorem L12_a4 : W12 m ρ c (Proc.devRef .tc main_arg4) = (m ((c : Thread nD τ).loc main_arg4)) :=
  (W12_of_ne m ρ c main_arg4 (by decide)).trans (L11_a4 m ρ c)
/-! ### Layer 1: the rows gathered at the sources -/
theorem L13_g : W13 m ρ c (Proc.devRef .tc main_v58) = (Cert.ReferenceIdeal.Hand.gatherRows (F := Ideal) (Cert.ReferenceIdeal.Hand.product (F := Ideal) (Cert.ReferenceIdeal.Hand.layer0 (F := Ideal) (m ((c : Thread nD τ).loc main_arg0)) (m ((c : Thread nD τ).loc main_arg1)) (m ((c : Thread nD τ).loc main_arg3)) (m ((c : Thread nD τ).loc main_arg4))) (Cert.ReferenceIdeal.Hand.weights1 (F := Ideal) (m ((c : Thread nD τ).loc main_arg3)))) (Cert.ReferenceIdeal.Hand.wrapIndex (F := Ideal) (Cert.ReferenceIdeal.Hand.row (F := Ideal) (m ((c : Thread nD τ).loc main_arg1))))) := by
  show StableHlo.after hostOps4 (W12 m ρ c) (Proc.devRef .tc main_v58) = _
  after_results
  rw [L12_h m ρ c, L12_row m ρ c]
  rfl
theorem L13_row : W13 m ρ c (Proc.devRef .tc main_v1) = (Cert.ReferenceIdeal.Hand.row (F := Ideal) (m ((c : Thread nD τ).loc main_arg1))) := by
  show StableHlo.after hostOps4 (W12 m ρ c) (Proc.devRef .tc main_v1) = _
  after_results
  exact L12_row m ρ c
theorem L13_col : W13 m ρ c (Proc.devRef .tc main_v3) = (Cert.ReferenceIdeal.Hand.col (F := Ideal) (m ((c : Thread nD τ).loc main_arg1))) := by
  show StableHlo.after hostOps4 (W12 m ρ c) (Proc.devRef .tc main_v3) = _
  after_results
  exact L12_col m ρ c
theorem L13_nc : W13 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps4 (W12 m ρ c) (Proc.devRef .tc main_v30) = _
  after_results
  exact L12_nc m ρ c
theorem L13_a3 : W13 m ρ c (Proc.devRef .tc main_arg3) = (m ((c : Thread nD τ).loc main_arg3)) := by
  show StableHlo.after hostOps4 (W12 m ρ c) (Proc.devRef .tc main_arg3) = _
  after_results
  exact L12_a3 m ρ c
theorem L13_a4 : W13 m ρ c (Proc.devRef .tc main_arg4) = (m ((c : Thread nD τ).loc main_arg4)) := by
  show StableHlo.after hostOps4 (W12 m ρ c) (Proc.devRef .tc main_arg4) = _
  after_results
  exact L12_a4 m ρ c
/-! ### Layer 1: the messages, scaled by the edge factors -/
theorem L14_msg : W14 m ρ c (Proc.devRef .tc main_v59) = (messages (m ((c : Thread nD τ).loc main_arg1)) (Cert.ReferenceIdeal.Hand.product (F := Ideal) (Cert.ReferenceIdeal.Hand.layer0 (F := Ideal) (m ((c : Thread nD τ).loc main_arg0)) (m ((c : Thread nD τ).loc main_arg1)) (m ((c : Thread nD τ).loc main_arg3)) (m ((c : Thread nD τ).loc main_arg4))) (Cert.ReferenceIdeal.Hand.weights1 (F := Ideal) (m ((c : Thread nD τ).loc main_arg3))))) := by
  refine (W14_arr m ρ c 2).trans ((Region4.final (V13 m ρ) c).trans ?_)
  show LibRowwiseStages.rowScale (A := 640000) (B := 128) (W13 m ρ c (Proc.devRef .tc main_v58)) (W13 m ρ c (Proc.devRef .tc main_v30)) = _
  rw [L13_g m ρ c, L13_nc m ρ c, StageBridge.scale_eq]
  rfl
theorem L14_row : W14 m ρ c (Proc.devRef .tc main_v1) = (Cert.ReferenceIdeal.Hand.row (F := Ideal) (m ((c : Thread nD τ).loc main_arg1))) :=
  (W14_of_ne m ρ c main_v1 (by decide)).trans (L13_row m ρ c)
theorem L14_col : W14 m ρ c (Proc.devRef .tc main_v3) = (Cert.ReferenceIdeal.Hand.col (F := Ideal) (m ((c : Thread nD τ).loc main_arg1))) :=
  (W14_of_ne m ρ c main_v3 (by decide)).trans (L13_col m ρ c)
theorem L14_nc : W14 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W14_arr m ρ c 1).trans (((dat4 (V13 m ρ) c).arrAt_in 1 rfl _).trans ((A_eq4 (V13 m ρ) c 1).trans (L13_nc m ρ c)))
theorem L14_a3 : W14 m ρ c (Proc.devRef .tc main_arg3) = (m ((c : Thread nD τ).loc main_arg3)) :=
  (W14_of_ne m ρ c main_arg3 (by decide)).trans (L13_a3 m ρ c)
theorem L14_a4 : W14 m ρ c (Proc.devRef .tc main_arg4) = (m ((c : Thread nD τ).loc main_arg4)) :=
  (W14_of_ne m ρ c main_arg4 (by decide)).trans (L13_a4 m ρ c)
/-! ### Layer 1: the messages summed into the targets, and the bias as a row -/
theorem L15_agg : W15 m ρ c (Proc.devRef .tc main_v62) = (Cert.ReferenceIdeal.Hand.layerSum (F := Ideal) (m ((c : Thread nD τ).loc main_arg1)) (Cert.ReferenceIdeal.Hand.product (F := Ideal) (Cert.ReferenceIdeal.Hand.layer0 (F := Ideal) (m ((c : Thread nD τ).loc main_arg0)) (m ((c : Thread nD τ).loc main_arg1)) (m ((c : Thread nD τ).loc main_arg3)) (m ((c : Thread nD τ).loc main_arg4))) (Cert.ReferenceIdeal.Hand.weights1 (F := Ideal) (m ((c : Thread nD τ).loc main_arg3))))) := by
  show StableHlo.after hostOps5 (W14 m ρ c) (Proc.devRef .tc main_v62) = _
  after_results
  rw [L14_msg m ρ c, L14_col m ρ c]
  rfl
theorem L15_b : W15 m ρ c (Proc.devRef .tc main_v65) = (shapeCast Cert.KernelIdeal.S1x128 (Cert.ReferenceIdeal.Hand.bias1 (F := Ideal) (m ((c : Thread nD τ).loc main_arg4))) Cert.KernelIdeal.Gen.shapeCasts_S128_S1x128) := by
  show StableHlo.after hostOps5 (W14 m ρ c) (Proc.devRef .tc main_v65) = _
  after_results
  rw [L14_a4 m ρ c]
  rfl
theorem L15_row : W15 m ρ c (Proc.devRef .tc main_v1) = (Cert.ReferenceIdeal.Hand.row (F := Ideal) (m ((c : Thread nD τ).loc main_arg1))) := by
  show StableHlo.after hostOps5 (W14 m ρ c) (Proc.devRef .tc main_v1) = _
  after_results
  exact L14_row m ρ c
theorem L15_col : W15 m ρ c (Proc.devRef .tc main_v3) = (Cert.ReferenceIdeal.Hand.col (F := Ideal) (m ((c : Thread nD τ).loc main_arg1))) := by
  show StableHlo.after hostOps5 (W14 m ρ c) (Proc.devRef .tc main_v3) = _
  after_results
  exact L14_col m ρ c
theorem L15_nc : W15 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps5 (W14 m ρ c) (Proc.devRef .tc main_v30) = _
  after_results
  exact L14_nc m ρ c
theorem L15_a3 : W15 m ρ c (Proc.devRef .tc main_arg3) = (m ((c : Thread nD τ).loc main_arg3)) := by
  show StableHlo.after hostOps5 (W14 m ρ c) (Proc.devRef .tc main_arg3) = _
  after_results
  exact L14_a3 m ρ c
theorem L15_a4 : W15 m ρ c (Proc.devRef .tc main_arg4) = (m ((c : Thread nD τ).loc main_arg4)) := by
  show StableHlo.after hostOps5 (W14 m ρ c) (Proc.devRef .tc main_arg4) = _
  after_results
  exact L14_a4 m ρ c
/-! ### Layer 1: the bias added, clipped at zero -/
theorem L16_out : W16 m ρ c (Proc.devRef .tc main_v66) = (Cert.ReferenceIdeal.Hand.layer1 (F := Ideal) (m ((c : Thread nD τ).loc main_arg0)) (m ((c : Thread nD τ).loc main_arg1)) (m ((c : Thread nD τ).loc main_arg3)) (m ((c : Thread nD τ).loc main_arg4))) := by
  refine (W16_arr m ρ c 2).trans ((Region5.final (V15 m ρ) c).trans ?_)
  show LibRowwiseStages.addRowClip (A := 100000) (B := 128) (W15 m ρ c (Proc.devRef .tc main_v62)) (W15 m ρ c (Proc.devRef .tc main_v65)) = _
  rw [L15_agg m ρ c, L15_b m ρ c, StageBridge.biasClip_eq]
  rfl
theorem L16_row : W16 m ρ c (Proc.devRef .tc main_v1) = (Cert.ReferenceIdeal.Hand.row (F := Ideal) (m ((c : Thread nD τ).loc main_arg1))) :=
  (W16_of_ne m ρ c main_v1 (by decide)).trans (L15_row m ρ c)
theorem L16_col : W16 m ρ c (Proc.devRef .tc main_v3) = (Cert.ReferenceIdeal.Hand.col (F := Ideal) (m ((c : Thread nD τ).loc main_arg1))) :=
  (W16_of_ne m ρ c main_v3 (by decide)).trans (L15_col m ρ c)
theorem L16_nc : W16 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W16_of_ne m ρ c main_v30 (by decide)).trans (L15_nc m ρ c)
theorem L16_a3 : W16 m ρ c (Proc.devRef .tc main_arg3) = (m ((c : Thread nD τ).loc main_arg3)) :=
  (W16_of_ne m ρ c main_arg3 (by decide)).trans (L15_a3 m ρ c)
theorem L16_a4 : W16 m ρ c (Proc.devRef .tc main_arg4) = (m ((c : Thread nD τ).loc main_arg4)) :=
  (W16_of_ne m ρ c main_arg4 (by decide)).trans (L15_a4 m ρ c)

end Cert.KernelIdeal.Fold

end
-- ==== Proof.Region6.lean ====
/-
  Region 6 of the kernel's program, read as a whole-array function: whatever the buffers hold when the region is entered,
  its output array ends holding the product of the region's first array with its second (the weight matrix).

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (1 : Fin 2) = 0 :=
  (by decide +kernel : ∀ t : Fin grid6.N, _)

/-- Every block of rows is some point's. -/
theorem index_onto : ∀ q : Fin 20, ∃ t : Fin cfg6.N, win6_2.index t = ![q.val, 0] :=
  (by decide +kernel : ∀ q : Fin 20, ∃ t : Fin grid6.N, win6_2.index t = ![q.val, 0])

/-- What point t writes back is block t of the whole-array function of the arrays as the region finds them. -/
theorem flushed_eq (c : Dev nD) (t : Fin cfg6.N) :
    (dat6 V c).flushed 2 t = ((cfg6.win 2).blk t).view.read (Elt Ideal)
      (LibRowwiseStages.matProd (A := 100000) (K := 128) (B := 128) (V c main_v66) (V c main_v68) : S100000x128.Idx → EReal) := by
  show (cfg6.win 2).cut (grid6.coords t) ((dat6 V c).after 2 t) = _
  rw [after6_2]
  unfold out6_2
  rw [View.canon_unit_zero zero_offsets]
  simp only [View.ld_unit_zero (S := S5000x128) zero_offsets, View.ld_unit_zero (S := S128x128) zero_offsets]
  rw [BlockValue.product6]
  obtain ⟨e0, e1, e2, e3, e4⟩ := index_maps t
  funext j
  show _ = LibRowwiseStages.matProd (A := 100000) (K := 128) (B := 128) (V c main_v66) (V c main_v68) (((cfg6.win 2).blk t).view.emb j)
  refine LibRowwiseStages.matProd_read (a := 5000) (A := 100000) (K := 128) (B := 128) _ _ _ _ _ _ (fun k => ?_) (fun k => ?_)
  · show (V c main_v66 : S100000x128.Idx → EReal) (((cfg6.win 0).blk t).view.emb (ix2 (n0 := 5000) (n1 := 128) (j 0) k))
      = (V c main_v66 : S100000x128.Idx → EReal) (ix2 (n0 := 100000) (n1 := 128) ((((cfg6.win 2).blk t).view.emb j) 0) k)
    refine congrArg (V c main_v66 : S100000x128.Idx → EReal) (funext fun a => Fin.ext ?_)
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  · show (V c main_v68 : S128x128.Idx → EReal) (((cfg6.win 1).blk t).view.emb (ix2 (n0 := 128) (n1 := 128) k (j 1)))
      = (V c main_v68 : S128x128.Idx → EReal) (ix2 (n0 := 128) (n1 := 128) k ((((cfg6.win 2).blk t).view.emb j) 1))
    refine congrArg (V c main_v68 : S128x128.Idx → EReal) (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega

/-- An index of the output array is in point t's block iff each coordinate is in the block's range on its axis. -/
theorem mem_block (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v69).slice (win6_2.rect t)).set ↔ _
  rw [View.set_slice_whole, Rect.mem_set_unit]
  exact Iff.rfl

/-- The blocks tile the array: row r is in the block of point r / 5000. -/
theorem covered (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := index_onto ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_block]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The output array after the region: the product of the region's first array with its second (the weight matrix). -/
theorem final (c : Dev nD) :
    (dat6 V c).arrAt 2 cfg6.N = (LibRowwiseStages.matProd (A := 100000) (K := 128) (B := 128) (V c main_v66) (V c main_v68) : S100000x128.Idx → EReal) :=
  (dat6 V c).arrAt_eq_of_cover 2 _ (fun t _ => flushed_eq V c t) covered

end Cert.KernelIdeal.Region6

end
-- ==== Proof.Region7.lean ====
/-
  Region 7 of the kernel's program, read as a whole-array function: whatever the buffers hold when the region is entered,
  its output array ends holding the rows of the region's first array scaled by its second (the column of edge factors).

  Grid point t loads rows 10000·t … 10000·t + 9999 of the first array and of the column, and writes back the same rows of the output; the
  64 blocks tile the 640000 rows, and a row of the result depends only on the same row of the first array and of the column, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region7

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows, and so does the column. -/
theorem index_maps : ∀ t : Fin cfg7.N, win7_0.index t (0 : Fin 2) = win7_2.index t (0 : Fin 2)
    ∧ win7_0.index t (1 : Fin 2) = 0
    ∧ win7_1.index t (0 : Fin 2) = win7_2.index t (0 : Fin 2)
    ∧ win7_1.index t (1 : Fin 2) = 0
    ∧ win7_2.index t (1 : Fin 2) = 0 :=
  (by decide +kernel : ∀ t : Fin grid7.N, _)

/-- Every block of rows is some point's. -/
theorem index_onto : ∀ q : Fin 64, ∃ t : Fin cfg7.N, win7_2.index t = ![q.val, 0] :=
  (by decide +kernel : ∀ q : Fin 64, ∃ t : Fin grid7.N, win7_2.index t = ![q.val, 0])

/-- What point t writes back is block t of the whole-array function of the arrays as the region finds them. -/
theorem flushed_eq (c : Dev nD) (t : Fin cfg7.N) :
    (dat7 V c).flushed 2 t = ((cfg7.win 2).blk t).view.read (Elt Ideal)
      (LibRowwiseStages.rowScale (A := 640000) (B := 128) (V c main_v76) (V c main_v30) : S640000x128.Idx → EReal) := by
  show (cfg7.win 2).cut (grid7.coords t) ((dat7 V c).after 2 t) = _
  rw [after7_2]
  unfold out7_2
  rw [View.canon_unit_zero zero_offsets]
  simp only [View.ld_unit_zero (S := S10000x128) zero_offsets, View.ld_unit_zero (S := S10000x1) zero_offsets]
  rw [BlockValue.scale7]
  obtain ⟨e0, e1, e2, e3, e4⟩ := index_maps t
  funext j
  show _ = LibRowwiseStages.rowScale (A := 640000) (B := 128) (V c main_v76) (V c main_v30) (((cfg7.win 2).blk t).view.emb j)
  refine LibRowwiseStages.rowScale_read (a := 10000) (A := 640000) (B := 128) _ _ _ _ _ _ ?_ ?_
  · show (V c main_v76 : S640000x128.Idx → EReal) (((cfg7.win 0).blk t).view.emb j) = (V c main_v76 : S640000x128.Idx → EReal) (((cfg7.win 2).blk t).view.emb j)
    refine congrArg (V c main_v76 : S640000x128.Idx → EReal) (funext fun a => Fin.ext ?_)
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 128 + 1 * (j 1).val = win7_2.index t (1 : Fin 2) * 128 + 1 * (j 1).val; omega
  · show (V c main_v30 : S640000x1.Idx → EReal) (((cfg7.win 1).blk t).view.emb (ix2 (n0 := 10000) (n1 := 1) (j 0) (0 : Fin 1)))
      = (V c main_v30 : S640000x1.Idx → EReal) (ix2 (n0 := 640000) (n1 := 1) ((((cfg7.win 2).blk t).view.emb j) 0) (0 : Fin 1))
    refine congrArg (V c main_v30 : S640000x1.Idx → EReal) (funext fun a => Fin.ext ?_)
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 1 + 1 * 0 = 0; omega

/-- An index of the output array is in point t's block iff each coordinate is in the block's range on its axis. -/
theorem mem_block (t : Fin cfg7.N) (i : S640000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v77).slice (win7_2.rect t)).set ↔ _
  rw [View.set_slice_whole, Rect.mem_set_unit]
  exact Iff.rfl

/-- The blocks tile the array: row r is in the block of point r / 10000. -/
theorem covered (i : S640000x128.Idx) :
    ∃ t : Fin cfg7.N, (cfg7.win 2).flush t = true ∧ i ∈ ((cfg7.win 2).blk t).view.set := by
  have hi0 : (i 0).val < 640000 := (i 0).isLt
  have hi1 : (i 1).val < 128 := (i 1).isLt
  obtain ⟨t, ht⟩ := index_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_block]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 128 ≤ (i 1).val ∧ (i 1).val < win7_2.index t (1 : Fin 2) * 128 + 128; omega

/-- The output array after the region: the rows of the region's first array scaled by its second (the column of edge factors). -/
theorem final (c : Dev nD) :
    (dat7 V c).arrAt 2 cfg7.N = (LibRowwiseStages.rowScale (A := 640000) (B := 128) (V c main_v76) (V c main_v30) : S640000x128.Idx → EReal) :=
  (dat7 V c).arrAt_eq_of_cover 2 _ (fun t _ => flushed_eq V c t) covered

end Cert.KernelIdeal.Region7

end
-- ==== Proof.Region8.lean ====
/-
  Region 8 of the kernel's program, read as a whole-array function: whatever the buffers hold when the region is entered,
  its output array ends holding the region's second array (a bias row) added to every row of its first.

  Grid point t loads rows 5000·t … 5000·t + 4999 of the first array and the whole second array, and writes back the same rows of the output; the
  20 blocks tile the 100000 rows, and a row of the result depends only on the same row of the first array, so the
  blocks written back are the blocks of the whole-array function.
-/
import proofs.«177611_j47931835023574_1_alg».proof.Proof.Gen.KernelIdeal.Frame
import proofs.«177611_j47931835023574_1_alg».proof.Proof.BlockValue
import proofs.«177611_j47931835023574_1_alg».proof.Proof.LibRowwiseStages
import Idealize.ShloMosaic.Lib.Pipeline.Value
import Idealize.ShloMosaic.Lib.ValueIdx

set_option maxRecDepth 16384

noncomputable section

namespace Cert.KernelIdeal.Region8

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the first input and the output move together down the rows; the second input stays at its one block. -/
theorem index_maps : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (1 : Fin 2) = 0 :=
  (by decide +kernel : ∀ t : Fin grid8.N, _)

/-- Every block of rows is some point's. -/
theorem index_onto : ∀ q : Fin 20, ∃ t : Fin cfg8.N, win8_2.index t = ![q.val, 0] :=
  (by decide +kernel : ∀ q : Fin 20, ∃ t : Fin grid8.N, win8_2.index t = ![q.val, 0])

/-- What point t writes back is block t of the whole-array function of the arrays as the region finds them. -/
theorem flushed_eq (c : Dev nD) (t : Fin cfg8.N) :
    (dat8 V c).flushed 2 t = ((cfg8.win 2).blk t).view.read (Elt Ideal)
      (LibRowwiseStages.addRow (A := 100000) (B := 128) (V c main_v80) (V c main_v83) : S100000x128.Idx → EReal) := by
  show (cfg8.win 2).cut (grid8.coords t) ((dat8 V c).after 2 t) = _
  rw [after8_2]
  unfold out8_2
  rw [View.canon_unit_zero zero_offsets]
  simp only [View.ld_unit_zero (S := S5000x128) zero_offsets, View.ld_unit_zero (S := S1x128) zero_offsets]
  rw [BlockValue.bias8]
  obtain ⟨e0, e1, e2, e3, e4⟩ := index_maps t
  funext j
  show _ = LibRowwiseStages.addRow (A := 100000) (B := 128) (V c main_v80) (V c main_v83) (((cfg8.win 2).blk t).view.emb j)
  refine LibRowwiseStages.addRow_read (a := 5000) (A := 100000) (B := 128) _ _ _ _ _ _ ?_ ?_
  · show (V c main_v80 : S100000x128.Idx → EReal) (((cfg8.win 0).blk t).view.emb j) = (V c main_v80 : S100000x128.Idx → EReal) (((cfg8.win 2).blk t).view.emb j)
    refine congrArg (V c main_v80 : S100000x128.Idx → EReal) (funext fun a => Fin.ext ?_)
    match a with
    | ⟨0, _⟩ => show win8_0.index t (0 : Fin 2) * 5000 + 1 * (j 0).val = win8_2.index t (0 : Fin 2) * 5000 + 1 * (j 0).val; omega
    | ⟨1, _⟩ => show win8_0.index t (1 : Fin 2) * 128 + 1 * (j 1).val = win8_2.index t (1 : Fin 2) * 128 + 1 * (j 1).val; omega
  · show (V c main_v83 : S1x128.Idx → EReal) (((cfg8.win 1).blk t).view.emb (ix2 (n0 := 1) (n1 := 128) (0 : Fin 1) (j 1)))
      = (V c main_v83 : S1x128.Idx → EReal) (ix2 (n0 := 1) (n1 := 128) (0 : Fin 1) ((((cfg8.win 2).blk t).view.emb j) 1))
    refine congrArg (V c main_v83 : S1x128.Idx → EReal) (funext fun a => Fin.ext ?_)
    match a with
    | ⟨0, _⟩ => show win8_1.index t (0 : Fin 2) * 1 + 1 * 0 = 0; omega
    | ⟨1, _⟩ => show win8_1.index t (1 : Fin 2) * 128 + 1 * (j 1).val = win8_2.index t (1 : Fin 2) * 128 + 1 * (j 1).val; omega

/-- An index of the output array is in point t's block iff each coordinate is in the block's range on its axis. -/
theorem mem_block (t : Fin cfg8.N) (i : S100000x128.Idx) :
    i ∈ ((cfg8.win 2).blk t).view.set ↔ ∀ a : Fin 2, win8_2.index t a * S5000x128.size a ≤ (i a).val ∧ (i a).val < win8_2.index t a * S5000x128.size a + S5000x128.size a := by
  show i ∈ ((View.whole main_v84).slice (win8_2.rect t)).set ↔ _
  rw [View.set_slice_whole, Rect.mem_set_unit]
  exact Iff.rfl

/-- The blocks tile the array: row r is in the block of point r / 5000. -/
theorem covered (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  obtain ⟨t, ht⟩ := index_onto ⟨(i 0).val / 5000, by omega⟩
  have q0 : win8_2.index t (0 : Fin 2) = (i 0).val / 5000 := congrFun ht 0
  have q1 : win8_2.index t (1 : Fin 2) = 0 := congrFun ht 1
  refine ⟨t, flush8_2 t, ?_⟩
  rw [mem_block]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The output array after the region: the region's second array (a bias row) added to every row of its first. -/
theorem final (c : Dev nD) :
    (dat8 V c).arrAt 2 cfg8.N = (LibRowwiseStages.addRow (A := 100000) (B := 128) (V c main_v80) (V c main_v83) : S100000x128.Idx → EReal) :=
  (dat8 V c).arrAt_eq_of_cover 2 _ (fun t _ => flushed_eq V c t) covered

end Cert.KernelIdeal.Region8

end
-- ==== Proof.Fold2.lean ====
/-
  The kernel program's buffers at its segment boundaries, layer 2: from the second layer's output to the result buffer
  after the ninth region, which holds the third layer's output (no clip).
-/
import proofs.«177611_j47931835023574_1_alg».proof.Proof.Fold1
import proofs.«177611_j47931835023574_1_alg».proof.Proof.Region6
import proofs.«177611_j47931835023574_1_alg».proof.Proof.Region7
import proofs.«177611_j47931835023574_1_alg».proof.Proof.Region8

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ### Before layer 2's product: its weight matrix; the previous layer's output is carried -/
theorem L17_w : W17 m ρ c (Proc.devRef .tc main_v68) = (Cert.ReferenceIdeal.Hand.weights2 (F := Ideal) (m ((c : Thread nD τ).loc main_arg3))) := by
  show StableHlo.after hostOps6 (W16 m ρ c) (Proc.devRef .tc main_v68) = _
  after_results
  rw [L16_a3 m ρ c]
  rfl
theorem L17_x : W17 m ρ c (Proc.devRef .tc main_v66) = (Cert.ReferenceIdeal.Hand.layer1 (F := Ideal) (m ((c : Thread nD τ).loc main_arg0)) (m ((c : Thread nD τ).loc main_arg1)) (m ((c : Thread nD τ).loc main_arg3)) (m ((c : Thread nD τ).loc main_arg4))) := by
  show StableHlo.after hostOps6 (W16 m ρ c) (Proc.devRef .tc main_v66) = _
  after_results
  exact L16_out m ρ c
theorem L17_row : W17 m ρ c (Proc.devRef .tc main_v1) = (Cert.ReferenceIdeal.Hand.row (F := Ideal) (m ((c : Thread nD τ).loc main_arg1))) := by
  show StableHlo.after hostOps6 (W16 m ρ c) (Proc.devRef .tc main_v1) = _
  after_results
  exact L16_row m ρ c
theorem L17_col : W17 m ρ c (Proc.devRef .tc main_v3) = (Cert.ReferenceIdeal.Hand.col (F := Ideal) (m ((c : Thread nD τ).loc main_arg1))) := by
  show StableHlo.after hostOps6 (W16 m ρ c) (Proc.devRef .tc main_v3) = _
  after_results
  exact L16_col m ρ c
theorem L17_nc : W17 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps6 (W16 m ρ c) (Proc.devRef .tc main_v30) = _
  after_results
  exact L16_nc m ρ c
theorem L17_a3 : W17 m ρ c (Proc.devRef .tc main_arg3) = (m ((c : Thread nD τ).loc main_arg3)) := by
  show StableHlo.after hostOps6 (W16 m ρ c) (Proc.devRef .tc main_arg3) = _
  after_results
  exact L16_a3 m ρ c
theorem L17_a4 : W17 m ρ c (Proc.devRef .tc main_arg4) = (m ((c : Thread nD τ).loc main_arg4)) := by
  show StableHlo.after hostOps6 (W16 m ρ c) (Proc.devRef .tc main_arg4) = _
  after_results
  exact L16_a4 m ρ c
/-! ### Layer 2: the product -/
theorem L18_h : W18 m ρ c (Proc.devRef .tc main_v69) = (Cert.ReferenceIdeal.Hand.product (F := Ideal) (Cert.ReferenceIdeal.Hand.layer1 (F := Ideal) (m ((c : Thread nD τ).loc main_arg0)) (m ((c : Thread nD τ).loc main_arg1)) (m ((c : Thread nD τ).loc main_arg3)) (m ((c : Thread nD τ).loc main_arg4))) (Cert.ReferenceIdeal.Hand.weights2 (F := Ideal) (m ((c : Thread nD τ).loc main_arg3)))) := by
  refine (W18_arr m ρ c 2).trans ((Region6.final (V17 m ρ) c).trans ?_)
  show LibRowwiseStages.matProd (A := 100000) (K := 128) (B := 128) (W17 m ρ c (Proc.devRef .tc main_v66)) (W17 m ρ c (Proc.devRef .tc main_v68)) = _
  rw [L17_x m ρ c, L17_w m ρ c]
  exact (StageBridge.product_eq _ _).symm
theorem L18_row : W18 m ρ c (Proc.devRef .tc main_v1) = (Cert.ReferenceIdeal.Hand.row (F := Ideal) (m ((c : Thread nD τ).loc main_arg1))) :=
  (W18_of_ne m ρ c main_v1 (by decide)).trans (L17_row m ρ c)
theorem L18_col : W18 m ρ c (Proc.devRef .tc main_v3) = (Cert.ReferenceIdeal.Hand.col (F := Ideal) (m ((c : Thread nD τ).loc main_arg1))) :=
  (W18_of_ne m ρ c main_v3 (by decide)).trans (L17_col m ρ c)
theorem L18_nc : W18 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W18_of_ne m ρ c main_v30 (by decide)).trans (L17_nc m ρ c)
theorem L18_a3 : W18 m ρ c (Proc.devRef .tc main_arg3) = (m ((c : Thread nD τ).loc main_arg3)) :=
  (W18_of_ne m ρ c main_arg3 (by decide)).trans (L17_a3 m ρ c)
theorem L18_a4 : W18 m ρ c (Proc.devRef .tc main_arg4) = (m ((c : Thread nD τ).loc main_arg4)) :=
  (W18_of_ne m ρ c main_arg4 (by decide)).trans (L17_a4 m ρ c)
/-! ### Layer 2: the rows gathered at the sources -/
theorem L19_g : W19 m ρ c (Proc.devRef .tc main_v76) = (Cert.ReferenceIdeal.Hand.gatherRows (F := Ideal) (Cert.ReferenceIdeal.Hand.product (F := Ideal) (Cert.ReferenceIdeal.Hand.layer1 (F := Ideal) (m ((c : Thread nD τ).loc main_arg0)) (m ((c : Thread nD τ).loc main_arg1)) (m ((c : Thread nD τ).loc main_arg3)) (m ((c : Thread nD τ).loc main_arg4))) (Cert.ReferenceIdeal.Hand.weights2 (F := Ideal) (m ((c : Thread nD τ).loc main_arg3)))) (Cert.ReferenceIdeal.Hand.wrapIndex (F := Ideal) (Cert.ReferenceIdeal.Hand.row (F := Ideal) (m ((c : Thread nD τ).loc main_arg1))))) := by
  show StableHlo.after hostOps7 (W18 m ρ c) (Proc.devRef .tc main_v76) = _
  after_results
  rw [L18_h m ρ c, L18_row m ρ c]
  rfl
theorem L19_row : W19 m ρ c (Proc.devRef .tc main_v1) = (Cert.ReferenceIdeal.Hand.row (F := Ideal) (m ((c : Thread nD τ).loc main_arg1))) := by
  show StableHlo.after hostOps7 (W18 m ρ c) (Proc.devRef .tc main_v1) = _
  after_results
  exact L18_row m ρ c
theorem L19_col : W19 m ρ c (Proc.devRef .tc main_v3) = (Cert.ReferenceIdeal.Hand.col (F := Ideal) (m ((c : Thread nD τ).loc main_arg1))) := by
  show StableHlo.after hostOps7 (W18 m ρ c) (Proc.devRef .tc main_v3) = _
  after_results
  exact L18_col m ρ c
theorem L19_nc : W19 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps7 (W18 m ρ c) (Proc.devRef .tc main_v30) = _
  after_results
  exact L18_nc m ρ c
theorem L19_a3 : W19 m ρ c (Proc.devRef .tc main_arg3) = (m ((c : Thread nD τ).loc main_arg3)) := by
  show StableHlo.after hostOps7 (W18 m ρ c) (Proc.devRef .tc main_arg3) = _
  after_results
  exact L18_a3 m ρ c
theorem L19_a4 : W19 m ρ c (Proc.devRef .tc main_arg4) = (m ((c : Thread nD τ).loc main_arg4)) := by
  show StableHlo.after hostOps7 (W18 m ρ c) (Proc.devRef .tc main_arg4) = _
  after_results
  exact L18_a4 m ρ c
/-! ### Layer 2: the messages, scaled by the edge factors -/
theorem L20_msg : W20 m ρ c (Proc.devRef .tc main_v77) = (messages (m ((c : Thread nD τ).loc main_arg1)) (Cert.ReferenceIdeal.Hand.product (F := Ideal) (Cert.ReferenceIdeal.Hand.layer1 (F := Ideal) (m ((c : Thread nD τ).loc main_arg0)) (m ((c : Thread nD τ).loc main_arg1)) (m ((c : Thread nD τ).loc main_arg3)) (m ((c : Thread nD τ).loc main_arg4))) (Cert.ReferenceIdeal.Hand.weights2 (F := Ideal) (m ((c : Thread nD τ).loc main_arg3))))) := by
  refine (W20_arr m ρ c 2).trans ((Region7.final (V19 m ρ) c).trans ?_)
  show LibRowwiseStages.rowScale (A := 640000) (B := 128) (W19 m ρ c (Proc.devRef .tc main_v76)) (W19 m ρ c (Proc.devRef .tc main_v30)) = _
  rw [L19_g m ρ c, L19_nc m ρ c, StageBridge.scale_eq]
  rfl
theorem L20_row : W20 m ρ c (Proc.devRef .tc main_v1) = (Cert.ReferenceIdeal.Hand.row (F := Ideal) (m ((c : Thread nD τ).loc main_arg1))) :=
  (W20_of_ne m ρ c main_v1 (by decide)).trans (L19_row m ρ c)
theorem L20_col : W20 m ρ c (Proc.devRef .tc main_v3) = (Cert.ReferenceIdeal.Hand.col (F := Ideal) (m ((c : Thread nD τ).loc main_arg1))) :=
  (W20_of_ne m ρ c main_v3 (by decide)).trans (L19_col m ρ c)
theorem L20_nc : W20 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) :=
  (W20_arr m ρ c 1).trans (((dat7 (V19 m ρ) c).arrAt_in 1 rfl _).trans ((A_eq7 (V19 m ρ) c 1).trans (L19_nc m ρ c)))
theorem L20_a3 : W20 m ρ c (Proc.devRef .tc main_arg3) = (m ((c : Thread nD τ).loc main_arg3)) :=
  (W20_of_ne m ρ c main_arg3 (by decide)).trans (L19_a3 m ρ c)
theorem L20_a4 : W20 m ρ c (Proc.devRef .tc main_arg4) = (m ((c : Thread nD τ).loc main_arg4)) :=
  (W20_of_ne m ρ c main_arg4 (by decide)).trans (L19_a4 m ρ c)
/-! ### Layer 2: the messages summed into the targets, and the bias as a row -/
theorem L21_agg : W21 m ρ c (Proc.devRef .tc main_v80) = (Cert.ReferenceIdeal.Hand.layerSum (F := Ideal) (m ((c : Thread nD τ).loc main_arg1)) (Cert.ReferenceIdeal.Hand.product (F := Ideal) (Cert.ReferenceIdeal.Hand.layer1 (F := Ideal) (m ((c : Thread nD τ).loc main_arg0)) (m ((c : Thread nD τ).loc main_arg1)) (m ((c : Thread nD τ).loc main_arg3)) (m ((c : Thread nD τ).loc main_arg4))) (Cert.ReferenceIdeal.Hand.weights2 (F := Ideal) (m ((c : Thread nD τ).loc main_arg3))))) := by
  show StableHlo.after hostOps8 (W20 m ρ c) (Proc.devRef .tc main_v80) = _
  after_results
  rw [L20_msg m ρ c, L20_col m ρ c]
  rfl
theorem L21_b : W21 m ρ c (Proc.devRef .tc main_v83) = (shapeCast Cert.KernelIdeal.S1x128 (Cert.ReferenceIdeal.Hand.bias2 (F := Ideal) (m ((c : Thread nD τ).loc main_arg4))) Cert.KernelIdeal.Gen.shapeCasts_S128_S1x128) := by
  show StableHlo.after hostOps8 (W20 m ρ c) (Proc.devRef .tc main_v83) = _
  after_results
  rw [L20_a4 m ρ c]
  rfl
theorem L21_row : W21 m ρ c (Proc.devRef .tc main_v1) = (Cert.ReferenceIdeal.Hand.row (F := Ideal) (m ((c : Thread nD τ).loc main_arg1))) := by
  show StableHlo.after hostOps8 (W20 m ρ c) (Proc.devRef .tc main_v1) = _
  after_results
  exact L20_row m ρ c
theorem L21_col : W21 m ρ c (Proc.devRef .tc main_v3) = (Cert.ReferenceIdeal.Hand.col (F := Ideal) (m ((c : Thread nD τ).loc main_arg1))) := by
  show StableHlo.after hostOps8 (W20 m ρ c) (Proc.devRef .tc main_v3) = _
  after_results
  exact L20_col m ρ c
theorem L21_nc : W21 m ρ c (Proc.devRef .tc main_v30) = (shapeCast Cert.KernelIdeal.S640000x1 (Cert.ReferenceIdeal.Hand.edgeNorm (F := Ideal) (m ((c : Thread nD τ).loc main_arg1))) Cert.KernelIdeal.Gen.shapeCasts_S640000_S640000x1) := by
  show StableHlo.after hostOps8 (W20 m ρ c) (Proc.devRef .tc main_v30) = _
  after_results
  exact L20_nc m ρ c
theorem L21_a3 : W21 m ρ c (Proc.devRef .tc main_arg3) = (m ((c : Thread nD τ).loc main_arg3)) := by
  show StableHlo.after hostOps8 (W20 m ρ c) (Proc.devRef .tc main_arg3) = _
  after_results
  exact L20_a3 m ρ c
theorem L21_a4 : W21 m ρ c (Proc.devRef .tc main_arg4) = (m ((c : Thread nD τ).loc main_arg4)) := by
  show StableHlo.after hostOps8 (W20 m ρ c) (Proc.devRef .tc main_arg4) = _
  after_results
  exact L20_a4 m ρ c
/-! ### Layer 2: the bias added -/
theorem L22_out : W22 m ρ c (Proc.devRef .tc main_v84) = (Cert.ReferenceIdeal.Hand.layer2 (F := Ideal) (m ((c : Thread nD τ).loc main_arg0)) (m ((c : Thread nD τ).loc main_arg1)) (m ((c : Thread nD τ).loc main_arg3)) (m ((c : Thread nD τ).loc main_arg4))) := by
  refine (W22_arr m ρ c 2).trans ((Region8.final (V21 m ρ) c).trans ?_)
  show LibRowwiseStages.addRow (A := 100000) (B := 128) (W21 m ρ c (Proc.devRef .tc main_v80)) (W21 m ρ c (Proc.devRef .tc main_v83)) = _
  rw [L21_agg m ρ c, L21_b m ρ c, StageBridge.bias_eq]
  rfl

end Cert.KernelIdeal.Fold

end
-- ==== Proof.lean ====
/-
  Three layers of graph convolution, computed two ways, are one function on the extended reals.

  Both programs take node features x [N, 128], an edge table [2, E] (sources, targets), three weight matrices and three
  biases (N = 100000, E = 640000). With d the number of edges into each node, s = 1/sqrt(d) where d > 0 and 0 elsewhere,
  and n_e = s[source e] · s[target e], a layer is
      x  ↦  ( Σ_{e : target e = i} n_e · (x · W_k)[source e] )_i  +  b_k ,
  clipped at zero on the first two layers. The reference is this line by line on the host. The kernel program computes the
  degree, the factors, every gather and every sum into the targets by the same host operations, and hands three stages of
  each layer to kernels over blocks of rows: the product x · W_k (20 blocks of 5000 rows; the change to a shorter float
  format before the product is the identity on the extended reals, and the accumulator is zero), the scaling of the
  gathered rows by n (64 blocks of 10000 edges), and the bias with its clip (20 blocks of 5000 rows). Each of those
  stages acts row by row, so its blocks are the blocks of the whole-array stage (Region0 … Region8 over BlockValue and
  LibRowwiseStages), and the whole-array stages are the reference's host operations (StageBridge: a contraction is the sum over
  the contracted position; a vector reshaped to a column or a row is the vector placed on that axis). Reading the kernel
  program's buffers boundary by boundary (Fold0 … Fold2) therefore ends, at the result buffer, at the reference's own
  composed value (ReferenceRun). No law beyond the definition of the matrix product is used, so finiteness of the inputs
  is never needed: the two sides are the same sums of the same products in every entry.

  The three frames: the kernel program's two are the generated frame certificates; the reference's is its run with the
  result dropped. The idealization rewrote nothing, so there is nothing to preserve.
-/
import proofs.«177611_j47931835023574_1_alg».proof.Defs
import proofs.«177611_j47931835023574_1_alg».proof.Proof.Gen.Kernel
import proofs.«177611_j47931835023574_1_alg».proof.Proof.Gen.Kernel.Skeleton
import proofs.«177611_j47931835023574_1_alg».proof.Proof.Gen.Kernel.Launch
import proofs.«177611_j47931835023574_1_alg».proof.Proof.Gen.Kernel.Points
import proofs.«177611_j47931835023574_1_alg».proof.Proof.Gen.Kernel.Frame
import proofs.«177611_j47931835023574_1_alg».proof.Proof.Gen.KernelIdeal
import proofs.«177611_j47931835023574_1_alg».proof.Proof.Gen.KernelIdeal.Skeleton
import proofs.«177611_j47931835023574_1_alg».proof.Proof.Gen.KernelIdeal.Launch
import proofs.«177611_j47931835023574_1_alg».proof.Proof.Gen.KernelIdeal.Points
import proofs.«177611_j47931835023574_1_alg».proof.Proof.Gen.KernelIdeal.Frame
import proofs.«177611_j47931835023574_1_alg».proof.Proof.Gen.ReferenceIdeal
import proofs.«177611_j47931835023574_1_alg».proof.Proof.Gen.Pre_finite_inputs
import proofs.«177611_j47931835023574_1_alg».proof.Proof.ReferenceRun
import proofs.«177611_j47931835023574_1_alg».proof.Proof.KernelRun
import proofs.«177611_j47931835023574_1_alg».proof.Proof.Fold2
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both programs end with the result at the third layer's output of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Hand.layer2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Fold.L22_out m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
